-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S3x64 : Shape := ⟨2, ![3, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S3x1 : Shape := ⟨2, ![3, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_
  bcast_S_S3x1 : S_.BroadcastsInDim S3x1 (![] : Fin 0 → Fin S3x1.rank)
  reducesTo_S3x1_S_d0_1 : S3x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S3 .f32) (main_arg9 : FVec F S3x1 .f32) (main_arg10 : FVec F S1 .f32) (main_arg11 : FVec F S1 .f32) (main_v33 : IVec S_ 1) : IVec S_ 1 :=
  let main_v34 : FVec F S3 .f32 := Host.absf main_arg8
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_v39 : FVec F S3x1 .f32 := Host.absf main_arg9
  let main_cst_14 : FVec F S_ .f32 := constant S_ .f32 0x7F800000#32
  let main_v40 : FVec F S3x1 .f32 := broadcastInDim S3x1 ![] bcast_S_S3x1 main_cst_14
  let main_v41 : IVec S3x1 1 := cmpf .olt main_v39 main_v40
  let main_c_15 : IVec S_ 1 := constantI S_ 1 1#1
  let main_v42 : IVec S_ 1 := (fun x v => Host.reduce IntOp.andi x v reducesTo_S3x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128x64 .f32) (main_arg6 : FVec F S64 .f32) (main_arg7 : FVec F S64x3 .f32) (main_arg8 : FVec F S3 .f32) (main_arg9 : FVec F S3x1 .f32) (main_arg10 : FVec F S1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x3 .f32 := Host.absf main_arg7
  let main_cst_10 : FVec F S_ .f32 := constant S_ .f32 0x7F800000#32
  let main_v30 : FVec F S64x3 .f32 := broadcastInDim S64x3 ![] bcast_S_S64x3 main_cst_10
  let main_v31 : IVec S64x3 1 := cmpf .olt main_v29 main_v30
  let main_c_11 : IVec S_ 1 := constantI S_ 1 1#1
  let main_v32 : IVec S_ 1 := (fun x v => Host.reduce IntOp.andi x v reducesTo_S64x3_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x256 .f32) (main_arg1 : IVec S2x800000 32) (main_arg2 : FVec F S3x64 .f32) (main_arg3 : FVec F S256x128 .f32) (main_arg4 : FVec F S128 .f32) (main_arg5 : FVec F S128x64 .f32) (main_arg6 : FVec F S64 .f32) (main_arg7 : FVec F S64x3 .f32) (main_arg8 : FVec F S3 .f32) (main_arg9 : FVec F S3x1 .f32) (main_arg10 : FVec F S1 .f32) (main_arg11 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S3x64 .f32 := Host.absf main_arg2
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x256 : Shape := ⟨2, ![50000, 256]⟩
abbrev S2x800000 : Shape := ⟨2, ![2, 800000]⟩
abbrev S3x64 : Shape := ⟨2, ![3, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S3x1 : Shape := ⟨2, ![3, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S1x3 : Shape := ⟨2, ![1, 3]⟩
abbrev S1x1 : Shape := ⟨2, ![1, 1]⟩
abbrev S2000x64 : Shape := ⟨2, ![2000, 64]⟩
abbrev S2000x3 : Shape := ⟨2, ![2000, 3]⟩
abbrev S2000x1 : Shape := ⟨2, ![2000, 1]⟩
abbrev S2000 : Shape := ⟨1, ![2000]⟩

abbrev nBuf : Space → Nat
  | .hbm => 92
  | .vmem => 19
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S3x64, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x3, .f32⟩
  | .hbm, ⟨8, _⟩ => ⟨S3, .f32⟩
  | .hbm, ⟨9, _⟩ => ⟨S3x1, .f32⟩
  | .hbm, ⟨10, _⟩ => ⟨S1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000, .i32⟩
  | .hbm, ⟨17, _⟩ => ⟨S850000, .i32⟩
  | .hbm, ⟨18, _⟩ => ⟨S850000, .i32⟩
  | .hbm, ⟨19, _⟩ => ⟨S_, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S50000x128, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x1, .f32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x64, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x64, .f32⟩
  | .hbm, ⟨78, _⟩ => ⟨S850000x1, .f32⟩
  | .hbm, ⟨79, _⟩ => ⟨S850000x64, .f32⟩
  | .hbm, ⟨80, _⟩ => ⟨S850000x64, .f32⟩
  | .hbm, ⟨81, _⟩ => ⟨S_, .f32⟩
  | .hbm, ⟨82, _⟩ => ⟨S50000x64, .f32⟩
  | .hbm, ⟨83, _⟩ => ⟨S850000x1, .i32⟩
  | .hbm, ⟨84, _⟩ => ⟨S50000x64, .f32⟩
  | .hbm, ⟨85, _⟩ => ⟨S1x64, .f32⟩
  | .hbm, ⟨86, _⟩ => ⟨S50000x64, .f32⟩
  | .hbm, ⟨87, _⟩ => ⟨S50000x64, .f32⟩
  | .hbm, ⟨88, _⟩ => ⟨S1x3, .f32⟩
  | .hbm, ⟨89, _⟩ => ⟨S1x1, .f32⟩
  | .hbm, ⟨90, _⟩ => ⟨S1x1, .f32⟩
  | .hbm, ⟨91, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S2000x64, .f32⟩
  | .local _ .vmem, ⟨11, _⟩ => ⟨S2000x64, .f32⟩
  | .local _ .vmem, ⟨12, _⟩ => ⟨S64x3, .f32⟩
  | .local _ .vmem, ⟨13, _⟩ => ⟨S1x3, .f32⟩
  | .local _ .vmem, ⟨14, _⟩ => ⟨S3x1, .f32⟩
  | .local _ .vmem, ⟨15, _⟩ => ⟨S1x1, .f32⟩
  | .local _ .vmem, ⟨16, _⟩ => ⟨S1x1, .f32⟩
  | .local _ .vmem, ⟨17, _⟩ => ⟨S2000x64, .f32⟩
  | .local _ .vmem, ⟨18, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call0_cst : Ref sig .tc := ⟨.hbm, 65, rfl⟩
abbrev main_call0_v0 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x3 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S3_S1x3 : S3.ShapeCasts S1x3
  shapeCasts_S1_S1x1 : S1.ShapeCasts S1x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S3x1_S3x1_0_0 : ∀ a, (![0, 0] : Fin 2 → Nat) a + S3x1.size a ≤ S3x1.size a
  h_S3x1 : 0 < S3x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  broadcasts_S2000x1_S2000x64 : S2000x1.Broadcasts S2000x64
  reduces_S2000x64_S2000 : S2000x64.Reduces [1] S2000
  shapeCasts_S2000_S2000x1 : S2000.ShapeCasts S2000x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x3_S2000x3_1_0_0_1_n_n_wf : DotDims.WF S2000x64 S64x3 S2000x3 [1] [0] [0] [1] [] []
  dot_S2000x3_S3x1_S2000x1_1_0_0_1_n_n_wf : DotDims.WF S2000x3 S3x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x3.size a ≤ S64x3.size a
  hwx2_1 : ∀ i : grid2.Coords, EltTy.bits .f32 = 32 ∨ (Rect.block (s := S64x3) S64x3.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x3.size a ≤ S1x3.size a
  hwx2_2 : ∀ i : grid2.Coords, EltTy.bits .f32 = 32 ∨ (Rect.block (s := S1x3) S1x3.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x1.size a ≤ S3x1.size a
  hwx2_3 : ∀ i : grid2.Coords, EltTy.bits .f32 = 32 ∨ (Rect.block (s := S3x1) S3x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S50000x64.size a
  hwx2_6 : ∀ i : grid2.Coords, EltTy.bits .f32 = 32 ∨ (Rect.block (s := S50000x64) S2000x64.size (cc2_transform_6 i) (hinb2_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x3_S2000x3_1_0_0_1_n_n : DotDims S2000x64 S64x3 S2000x3 where
  lhsContracting := [1]
  rhsContracting := [0]
  lhsNonContracting := [0]
  rhsNonContracting := [1]
  lhsBatch := []
  rhsBatch := []
  wf := dot_S2000x64_S64x3_S2000x3_1_0_0_1_n_n_wf
def dot_S2000x3_S3x1_S2000x1_1_0_0_1_n_n : DotDims S2000x3 S3x1 S2000x1 where
  lhsContracting := [1]
  rhsContracting := [0]
  lhsNonContracting := [0]
  rhsNonContracting := [1]
  lhsBatch := []
  rhsBatch := []
  wf := dot_S2000x3_S3x1_S2000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v61) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x3.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S3x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S3x64 : Shape := ⟨2, ![3, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S3x1 : Shape := ⟨2, ![3, 1]⟩
abbrev S1 : Shape := ⟨1, ![1]⟩
abbrev S1x800000 : Shape := ⟨2, ![1, 800000]⟩
abbrev S800000 : Shape := ⟨1, ![800000]⟩
abbrev S50000x128 : Shape := ⟨2, ![50000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x3 : Shape := ⟨2, ![50000, 3]⟩
abbrev S1x3 : Shape := ⟨2, ![1, 3]⟩
abbrev S50000x1 : Shape := ⟨2, ![50000, 1]⟩
abbrev S1x1 : Shape := ⟨2, ![1, 1]⟩

abbrev nBuf : Space → Nat
  | .hbm => 153
  | .vmem => 0
  | .smem => 0
  | _ => 0

abbrev hbmTy0_0 (i : Nat) : BufTy := match i % 128 with
  | 0 => ⟨S50000x256, .f32⟩
  | 1 => ⟨S2x800000, .i32⟩
  | 2 => ⟨S3x64, .f32⟩
  | 3 => ⟨S256x128, .f32⟩
  | 4 => ⟨S128, .f32⟩
  | 5 => ⟨S128x64, .f32⟩
  | 6 => ⟨S64, .f32⟩
  | 7 => ⟨S64x3, .f32⟩
  | 8 => ⟨S3, .f32⟩
  | 9 => ⟨S3x1, .f32⟩
  | 10 => ⟨S1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S50000x128, .f32⟩
  | 17 => ⟨S50000, .i32⟩
  | 18 => ⟨S850000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000x128, .f32⟩
  | 55 => ⟨S850000x1, .f32⟩
  | 56 => ⟨S850000x128, .f32⟩
  | 57 => ⟨S850000x128, .f32⟩
  | 58 => ⟨S_, .f32⟩
  | 59 => ⟨S50000x128, .f32⟩
  | 60 => ⟨S850000x1, .i32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S50000x64, .f32⟩
  | 69 => ⟨S50000, .i32⟩
  | 70 => ⟨S850000, .i32⟩
  | 71 => ⟨S850000, .i32⟩
  | 72 => ⟨S_, .f32⟩
  | 73 => ⟨S850000, .f32⟩
  | 74 => ⟨S_, .f32⟩
  | 75 => ⟨S50000, .f32⟩
  | 76 => ⟨S850000x1, .i32⟩
  | 77 => ⟨S50000, .f32⟩
  | 78 => ⟨S50000, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x64, .f32⟩
  | 107 => ⟨S850000x1, .f32⟩
  | 108 => ⟨S850000x64, .f32⟩
  | 109 => ⟨S850000x64, .f32⟩
  | 110 => ⟨S_, .f32⟩
  | 111 => ⟨S50000x64, .f32⟩
  | 112 => ⟨S850000x1, .i32⟩
  | 113 => ⟨S50000x64, .f32⟩
  | 114 => ⟨S1x64, .f32⟩
  | 115 => ⟨S50000x64, .f32⟩
  | 116 => ⟨S50000x64, .f32⟩
  | 117 => ⟨S50000x3, .f32⟩
  | 118 => ⟨S1x3, .f32⟩
  | 119 => ⟨S50000x3, .f32⟩
  | 120 => ⟨S50000x3, .f32⟩
  | 121 => ⟨S50000x1, .f32⟩
  | 122 => ⟨S1x1, .f32⟩
  | 123 => ⟨S50000x1, .f32⟩
  | 124 => ⟨S50000x1, .f32⟩
  | 125 => ⟨S50000x1, .f32⟩
  | 126 => ⟨S50000x1, .f32⟩
  | 127 => ⟨S_, .f32⟩
  | _ => ⟨S50000x256, .f32⟩

abbrev hbmTy0_1 (i : Nat) : BufTy := match i % 128 with
  | 0 => ⟨S50000x1, .f32⟩
  | 1 => ⟨S50000x1, .f32⟩
  | 2 => ⟨S_, .f32⟩
  | 3 => ⟨S50000x1, .f32⟩
  | 4 => ⟨S50000x1, .f32⟩
  | 5 => ⟨S1x1, .f32⟩
  | 6 => ⟨S50000x1, .f32⟩
  | 7 => ⟨S50000x1, .f32⟩
  | 8 => ⟨S50000x64, .f32⟩
  | 9 => ⟨S50000x64, .f32⟩
  | 10 => ⟨S_, .f32⟩
  | 11 => ⟨S50000, .f32⟩
  | 12 => ⟨S_, .f32⟩
  | 13 => ⟨S50000, .f32⟩
  | 14 => ⟨S50000, .f32⟩
  | 15 => ⟨S50000x1, .f32⟩
  | 16 => ⟨S50000x64, .f32⟩
  | 17 => ⟨S50000x64, .f32⟩
  | 18 => ⟨S50000x64, .f32⟩
  | 19 => ⟨S_, .f32⟩
  | 20 => ⟨S50000, .f32⟩
  | 21 => ⟨S50000x1, .f32⟩
  | 22 => ⟨S50000x1, .f32⟩
  | 23 => ⟨S50000x64, .f32⟩
  | 24 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call0_cst : Ref sig .tc := ⟨.hbm, 65, rfl⟩
abbrev main_call0_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_11 : Ref sig .tc := ⟨.hbm, 88, rfl⟩
abbrev main_v61 : Ref sig .tc := ⟨.hbm, 89, rfl⟩
abbrev main_v62 : Ref sig .tc := ⟨.hbm, 90, rfl⟩
abbrev main_c_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_16 : Ref sig .tc := ⟨.hbm, 127, rfl⟩
abbrev main_v95 : Ref sig .tc := ⟨.hbm, 128, rfl⟩
abbrev main_v96 : Ref sig .tc := ⟨.hbm, 129, rfl⟩
abbrev main_cst_17 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_call1_cst : Ref sig .tc := ⟨.hbm, 138, rfl⟩
abbrev main_call1_v0 : Ref sig .tc := ⟨.hbm, 139, rfl⟩
abbrev main_call1_cst_0 : Ref sig .tc := ⟨.hbm, 140, rfl⟩
abbrev main_call1_v1 : Ref sig .tc := ⟨.hbm, 141, rfl⟩
abbrev main_call1_v2 : Ref sig .tc := ⟨.hbm, 142, rfl⟩
abbrev main_call1_v3 : Ref sig .tc := ⟨.hbm, 143, rfl⟩
abbrev main_call1_v4 : Ref sig .tc := ⟨.hbm, 144, rfl⟩
abbrev main_call1_v5 : Ref sig .tc := ⟨.hbm, 145, rfl⟩
abbrev main_call1_v6 : Ref sig .tc := ⟨.hbm, 146, rfl⟩
abbrev main_call1_cst_1 : Ref sig .tc := ⟨.hbm, 147, rfl⟩
abbrev main_call1_v7 : Ref sig .tc := ⟨.hbm, 148, rfl⟩
abbrev main_call1_v8 : Ref sig .tc := ⟨.hbm, 149, rfl⟩
abbrev main_call1_v9 : Ref sig .tc := ⟨.hbm, 150, rfl⟩
abbrev main_call1_v10 : Ref sig .tc := ⟨.hbm, 151, rfl⟩
abbrev main_v104 : Ref sig .tc := ⟨.hbm, 152, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  dot_S50000x256_S256x128_S50000x128_1_0_0_1_n_n_wf : DotDims.WF S50000x256 S256x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x3_S50000x3_1_0_0_1_n_n_wf : DotDims.WF S50000x64 S64x3 S50000x3 [1] [0] [0] [1] [] []
  dot_S50000x3_S3x1_S50000x1_1_0_0_1_n_n_wf : DotDims.WF S50000x3 S3x1 S50000x1 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x3_S50000x3_1_0_0_1_n_n : DotDims S50000x64 S64x3 S50000x3 where
  lhsContracting := [1]
  rhsContracting := [0]
  lhsNonContracting := [0]
  rhsNonContracting := [1]
  lhsBatch := []
  rhsBatch := []
  wf := dot_S50000x64_S64x3_S50000x3_1_0_0_1_n_n_wf
def dot_S50000x3_S3x1_S50000x1_1_0_0_1_n_n : DotDims S50000x3 S3x1 S50000x1 where
  lhsContracting := [1]
  rhsContracting := [0]
  lhsNonContracting := [0]
  rhsNonContracting := [1]
  lhsBatch := []
  rhsBatch := []
  wf := dot_S50000x3_S3x1_S50000x1_1_0_0_1_n_n_wf

class Facts : Prop extends Facts₀ where

variable [Facts]
-- ==== Proof.RunResult.lean ====
/-
  The idealized kernel's run with its result named.

  @main is three kernel regions among stretches of host operations. The generated frame runs it segment by segment and
  keeps, at every segment boundary, the contents of every buffer that outlives a region: after the last region these are
  `Gen.W7`. Every weakly fair execution ends with each such buffer at those contents; read at the twelve argument buffers
  this is the frame claim, and read at the result buffer `main_v65` it names the result: the third region's output array
  as its write-backs leave it. Nothing else is proved here.
-/
import proofs.«123183_j1571958030448_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_result : θ_run defs (onTc (τ := τ) (main (F := F))) ⟨m, fun _ => 0, ρ⟩ (fun r => ∀ c : Dev nD,
      r.2.mem ((c.tc : Thread nD τ).loc main_v65) = W7 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v65 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.Whole

end
-- ==== Proof.KHost.lean ====
/-
  The idealized kernel's host operations, between its three regions.

  From the edge list `ei : [2, 800000]` the program forms the sources and destinations with the 50000 self loops appended
  (`srcK`, `dstK`), the degree of every node as a scatter-add of ones at the destinations, the normalisation
  `norm e = rsqrt (deg (src e)) · rsqrt (deg (dst e))` (row numbers below zero wrapped by the table's height before every
  gather), and then twice the same aggregation: gather the rows of a table at the sources, scale row `e` by `norm e`,
  scatter-add the rows at the destinations, add a bias row; the first layer is followed by a maximum with zero. This file
  names these as functions and reads the program's buffer contents, at each region's entry, through them.
-/
import proofs.«123183_j1571958030448_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.SL.Sem

variable {F : FTy → Type} [FloatOps F]

/-! ## The graph chain, as functions -/

/-- Two index vectors joined along their one axis (the program's `concatenate`, as a function of its two operands). -/
def joinK (a : IVec S800000 32) (b : IVec S50000 32) : IVec S850000 32 :=
  concatenate S850000 0 [⟨S800000, a⟩, ⟨S50000, b⟩] concatenates_S800000_S50000_S850000_d0
theorem joinK_eq (a : IVec S800000 32) (b : IVec S50000 32) :
    concatenate S850000 0 [⟨S800000, a⟩, ⟨S50000, b⟩] concatenates_S800000_S50000_S850000_d0 = joinK a b := rfl

/-- The edges' sources, then the 50000 self loops. -/
def srcK (ei : IVec S2x800000 32) : IVec S850000 32 :=
  joinK (shapeCast S800000 (extractStridedSlice S1x800000 ![0, 0] ei slices_S2x800000_S1x800000_0_0) shapeCasts_S1x800000_S800000)
    (iotaInDim S50000 32 0)
/-- The edges' destinations, then the 50000 self loops. -/
def dstK (ei : IVec S2x800000 32) : IVec S850000 32 :=
  joinK (shapeCast S800000 (extractStridedSlice S1x800000 ![1, 0] ei slices_S2x800000_S1x800000_1_0) shapeCasts_S1x800000_S800000)
    (iotaInDim S50000 32 0)
/-- A row number below zero is moved up by the table's height (50000). -/
def wrapK (v : IVec S850000 32) : IVec S850000 32 :=
  select (cmpi .slt v (broadcastInDim S850000 ![] bcast_S_S850000 (constantI S_ 32 0#32)))
    (addi v (broadcastInDim S850000 ![] bcast_S_S850000 (constantI S_ 32 50000#32))) v
/-- A vector of row numbers as the one-column table a gather or scatter takes. -/
def colK (v : IVec S850000 32) : IVec S850000x1 32 := broadcastInDim S850000x1 ![0] bcast_S850000_S850000x1_0 v

/-- The reciprocal square root of every node's degree. -/
def dinvK (ei : IVec S2x800000 32) : FVec F S50000 .f32 :=
  Host.rsqrt (Host.scatterAdd scatter_S50000_S850000x1_S850000_n_0_0_1
    (broadcastInDim S50000 ![] bcast_S_S50000 (constant S_ .f32 0x00000000#32)) (colK (dstK ei))
    (broadcastInDim S850000 ![] bcast_S_S850000 (constant S_ .f32 0x3F800000#32)))
/-- The symmetric normalisation of every edge. -/
def normK (ei : IVec S2x800000 32) : FVec F S850000 .f32 :=
  mulf (Host.gather gather_S50000_S850000x1_S850000_n_0_n_n_0_1_1 (dinvK (F := F) ei) (colK (wrapK (srcK ei))))
    (Host.gather gather_S50000_S850000x1_S850000_n_0_n_n_0_1_1 (dinvK (F := F) ei) (colK (wrapK (dstK ei))))

/-- One aggregation over a [50000, 128] table: gather at the sources, scale by the normalisation, scatter-add at the
    destinations. -/
def agg128 (h : FVec F S50000x128 .f32) (ei : IVec S2x800000 32) : FVec F S50000x128 .f32 :=
  Host.scatterAdd scatter_S50000x128_S850000x1_S850000x128_1_0_0_1
    (broadcastInDim S50000x128 ![] bcast_S_S50000x128 (constant S_ .f32 0x00000000#32)) (colK (dstK ei))
    (mulf (Host.gather gather_S50000x128_S850000x1_S850000x128_1_0_n_n_0_1_1128 h (colK (wrapK (srcK ei))))
      (broadcastInDim S850000x128 ![0, 1] bcast_S850000x1_S850000x128_0_1
        (broadcastInDim S850000x1 ![0] bcast_S850000_S850000x1_0 (normK (F := F) ei))))
/-- The first layer after its linear transform: aggregate, add the bias row, rectify. -/
def layer1K (h : FVec F S50000x128 .f32) (ei : IVec S2x800000 32) (b : FVec F S128 .f32) : FVec F S50000x128 .f32 :=
  maximumf (addf (agg128 h ei)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The same aggregation over a [50000, 64] table. -/
def agg64 (h : FVec F S50000x64 .f32) (ei : IVec S2x800000 32) : FVec F S50000x64 .f32 :=
  Host.scatterAdd scatter_S50000x64_S850000x1_S850000x64_1_0_0_1
    (broadcastInDim S50000x64 ![] bcast_S_S50000x64 (constant S_ .f32 0x00000000#32)) (colK (dstK ei))
    (mulf (Host.gather gather_S50000x64_S850000x1_S850000x64_1_0_n_n_0_1_164 h (colK (wrapK (srcK ei))))
      (broadcastInDim S850000x64 ![0, 1] bcast_S850000x1_S850000x64_0_1
        (broadcastInDim S850000x1 ![0] bcast_S850000_S850000x1_0 (normK (F := F) ei))))
/-- The second layer after its linear transform: aggregate, add the bias row. -/
def layer2K (h : FVec F S50000x64 .f32) (ei : IVec S2x800000 32) (b : FVec F S64 .f32) : FVec F S50000x64 .f32 :=
  addf (agg64 h ei)
    (broadcastInDim S50000x64 ![0, 1] bcast_S1x64_S50000x64_0_1 (broadcastInDim S1x64 ![1] bcast_S64_S1x64_1 b))

/-! ## Reading the buffer contents at the segment boundaries -/

/-- One pass over a stretch of host operations: each operation's result at its own buffer is its function's value, at
    any other buffer what was there; a join is entered through `joinK`. -/
local macro "host_results" : tactic =>
  `(tactic| simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      joinK_eq])

/-- No operation of the named stretch writes the buffer. -/
local macro "not_written" ops:ident : tactic =>
  `(tactic| (refine List.forall_iff_forall_mem.mp ?_
             simp only [$ops:ident, List.flatten_cons, List.flatten_nil, List.append_nil, List.cons_append, List.nil_append, List.Forall,
               StableHlo.nullary_writes, StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

variable (m : (ℓ : Loc nD τ sig) → Buf (Elt F) ℓ) (ρ : Dev nD → PrngReg)

/-- The sources, after the first stretch. -/
theorem src_W1 (c : Dev nD) : W1 m ρ c (Proc.devRef .tc main_v5) = srcK (m ((c : Thread nD τ).loc main_arg1)) := by
  show StableHlo.after hostOps0 (W0 m ρ c) (Proc.devRef .tc main_v5) = _
  host_results
  rfl

/-- The destinations, after the first stretch. -/
theorem dst_W1 (c : Dev nD) : W1 m ρ c (Proc.devRef .tc main_v6) = dstK (m ((c : Thread nD τ).loc main_arg1)) := by
  show StableHlo.after hostOps0 (W0 m ρ c) (Proc.devRef .tc main_v6) = _
  host_results
  rfl

/-- The normalisation, after the first stretch. -/
theorem norm_W1 (c : Dev nD) : W1 m ρ c (Proc.devRef .tc main_v26) = normK (F := F) (m ((c : Thread nD τ).loc main_arg1)) := by
  show StableHlo.after hostOps0 (W0 m ρ c) (Proc.devRef .tc main_v26) = _
  host_results
  rfl

/-! ### What a segment leaves alone -/

/-- A buffer the first stretch does not write holds its launch contents after it. -/
theorem W1_keep (c : Dev nD) (b : Ref sig .tc)
    (h : ∀ op ∈ (hostOps0 : List (HloOp τ sig (Elt F))), Proc.devRef .tc b ∉ op.writes) :
    W1 m ρ c (Proc.devRef .tc b) = m ((c : Thread nD τ).loc b) :=
  (StableHlo.after_of_forall_not_mem (b := Proc.devRef .tc b) hostOps0 (W0 m ρ c) h).trans rfl

/-- The first region leaves every buffer but its three arrays alone. -/
theorem W2_keep (c : Dev nD) (b : Ref sig .tc) (h : ∀ w, Pipeline.arrRef spec0 w ≠ b) :
    W2 m ρ c (Proc.devRef .tc b) = W1 m ρ c (Proc.devRef .tc b) := W2_of_ne m ρ c b h

/-- A buffer the second stretch (the first aggregation and the rectifier) does not write. -/
theorem W4_keep (c : Dev nD) (b : Ref sig .tc)
    (h1 : ∀ op ∈ (hostOps1 : List (HloOp τ sig (Elt F))), Proc.devRef .tc b ∉ op.writes)
    (h11 : ∀ op ∈ (hostOps1_1 : List (HloOp τ sig (Elt F))), Proc.devRef .tc b ∉ op.writes) :
    W4 m ρ c (Proc.devRef .tc b) = W2 m ρ c (Proc.devRef .tc b) :=
  (StableHlo.after_of_forall_not_mem (b := Proc.devRef .tc b) hostOps1_1 (W3 m ρ c) h11).trans
    (StableHlo.after_of_forall_not_mem (b := Proc.devRef .tc b) hostOps1 (W2 m ρ c) h1)

/-- The second region leaves every buffer but its three arrays alone. -/
theorem W5_keep (c : Dev nD) (b : Ref sig .tc) (h : ∀ w, Pipeline.arrRef spec1 w ≠ b) :
    W5 m ρ c (Proc.devRef .tc b) = W4 m ρ c (Proc.devRef .tc b) := W5_of_ne m ρ c b h

/-- A buffer the third stretch (the second aggregation and the three casts) does not write. -/
theorem W6_keep (c : Dev nD) (b : Ref sig .tc)
    (h2 : ∀ op ∈ (hostOps2 : List (HloOp τ sig (Elt F))), Proc.devRef .tc b ∉ op.writes) :
    W6 m ρ c (Proc.devRef .tc b) = W5 m ρ c (Proc.devRef .tc b) :=
  StableHlo.after_of_forall_not_mem (b := Proc.devRef .tc b) hostOps2 (W5 m ρ c) h2

/-! ### The first region's operands -/

theorem arg0_W1 (c : Dev nD) : W1 m ρ c (Proc.devRef .tc main_arg0) = m ((c : Thread nD τ).loc main_arg0) :=
  W1_keep m ρ c main_arg0 (by not_written hostOps0)
theorem arg3_W1 (c : Dev nD) : W1 m ρ c (Proc.devRef .tc main_arg3) = m ((c : Thread nD τ).loc main_arg3) :=
  W1_keep m ρ c main_arg3 (by not_written hostOps0)

/-! ### The second stretch: the first aggregation -/

theorem src_W2 (c : Dev nD) : W2 m ρ c (Proc.devRef .tc main_v5) = srcK (m ((c : Thread nD τ).loc main_arg1)) :=
  (W2_keep m ρ c main_v5 (by decide)).trans (src_W1 m ρ c)
theorem dst_W2 (c : Dev nD) : W2 m ρ c (Proc.devRef .tc main_v6) = dstK (m ((c : Thread nD τ).loc main_arg1)) :=
  (W2_keep m ρ c main_v6 (by decide)).trans (dst_W1 m ρ c)
theorem norm_W2 (c : Dev nD) : W2 m ρ c (Proc.devRef .tc main_v26) = normK (F := F) (m ((c : Thread nD τ).loc main_arg1)) :=
  (W2_keep m ρ c main_v26 (by decide)).trans (norm_W1 m ρ c)
theorem arg4_W2 (c : Dev nD) : W2 m ρ c (Proc.devRef .tc main_arg4) = m ((c : Thread nD τ).loc main_arg4) :=
  (W2_keep m ρ c main_arg4 (by decide)).trans (W1_keep m ρ c main_arg4 (by not_written hostOps0))

/-- The second region's row operand: the first layer of what the first region left. -/
theorem hidden_W4 (c : Dev nD) :
    W4 m ρ c (Proc.devRef .tc main_v44)
      = layer1K (W2 m ρ c (Proc.devRef .tc main_v27)) (m ((c : Thread nD τ).loc main_arg1)) (m ((c : Thread nD τ).loc main_arg4)) := by
  show StableHlo.after hostOps1_1 (StableHlo.after hostOps1 (W2 m ρ c)) (Proc.devRef .tc main_v44) = _
  host_results
  rw [src_W2 m ρ c, dst_W2 m ρ c, norm_W2 m ρ c, arg4_W2 m ρ c]
  rfl

/-- The second region's weight operand. -/
theorem arg5_W4 (c : Dev nD) : W4 m ρ c (Proc.devRef .tc main_arg5) = m ((c : Thread nD τ).loc main_arg5) :=
  (W4_keep m ρ c main_arg5 (by not_written hostOps1) (by not_written hostOps1_1)).trans
    ((W2_keep m ρ c main_arg5 (by decide)).trans (W1_keep m ρ c main_arg5 (by not_written hostOps0)))

/-! ### The third stretch: the second aggregation and the three casts -/

theorem src_W5 (c : Dev nD) : W5 m ρ c (Proc.devRef .tc main_v5) = srcK (m ((c : Thread nD τ).loc main_arg1)) :=
  (W5_keep m ρ c main_v5 (by decide)).trans ((W4_keep m ρ c main_v5 (by not_written hostOps1) (by not_written hostOps1_1)).trans (src_W2 m ρ c))
theorem dst_W5 (c : Dev nD) : W5 m ρ c (Proc.devRef .tc main_v6) = dstK (m ((c : Thread nD τ).loc main_arg1)) :=
  (W5_keep m ρ c main_v6 (by decide)).trans ((W4_keep m ρ c main_v6 (by not_written hostOps1) (by not_written hostOps1_1)).trans (dst_W2 m ρ c))
theorem norm_W5 (c : Dev nD) : W5 m ρ c (Proc.devRef .tc main_v26) = normK (F := F) (m ((c : Thread nD τ).loc main_arg1)) :=
  (W5_keep m ρ c main_v26 (by decide)).trans ((W4_keep m ρ c main_v26 (by not_written hostOps1) (by not_written hostOps1_1)).trans (norm_W2 m ρ c))

/-- An argument buffer no stretch writes and neither of the first two regions owns holds its launch contents up to
    the third stretch. -/
theorem arg_W5 (c : Dev nD) (b : Ref sig .tc)
    (h0 : ∀ op ∈ (hostOps0 : List (HloOp τ sig (Elt F))), Proc.devRef .tc b ∉ op.writes) (hs0 : ∀ w, Pipeline.arrRef spec0 w ≠ b)
    (h1 : ∀ op ∈ (hostOps1 : List (HloOp τ sig (Elt F))), Proc.devRef .tc b ∉ op.writes)
    (h11 : ∀ op ∈ (hostOps1_1 : List (HloOp τ sig (Elt F))), Proc.devRef .tc b ∉ op.writes) (hs1 : ∀ w, Pipeline.arrRef spec1 w ≠ b) :
    W5 m ρ c (Proc.devRef .tc b) = m ((c : Thread nD τ).loc b) :=
  (W5_keep m ρ c b hs1).trans ((W4_keep m ρ c b h1 h11).trans ((W2_keep m ρ c b hs0).trans (W1_keep m ρ c b h0)))

theorem arg6_W5 (c : Dev nD) : W5 m ρ c (Proc.devRef .tc main_arg6) = m ((c : Thread nD τ).loc main_arg6) :=
  arg_W5 m ρ c main_arg6 (by not_written hostOps0) (by decide) (by not_written hostOps1) (by not_written hostOps1_1) (by decide)
theorem arg7_W5 (c : Dev nD) : W5 m ρ c (Proc.devRef .tc main_arg7) = m ((c : Thread nD τ).loc main_arg7) :=
  arg_W5 m ρ c main_arg7 (by not_written hostOps0) (by decide) (by not_written hostOps1) (by not_written hostOps1_1) (by decide)
theorem arg8_W5 (c : Dev nD) : W5 m ρ c (Proc.devRef .tc main_arg8) = m ((c : Thread nD τ).loc main_arg8) :=
  arg_W5 m ρ c main_arg8 (by not_written hostOps0) (by decide) (by not_written hostOps1) (by not_written hostOps1_1) (by decide)
theorem arg9_W5 (c : Dev nD) : W5 m ρ c (Proc.devRef .tc main_arg9) = m ((c : Thread nD τ).loc main_arg9) :=
  arg_W5 m ρ c main_arg9 (by not_written hostOps0) (by decide) (by not_written hostOps1) (by not_written hostOps1_1) (by decide)
theorem arg10_W5 (c : Dev nD) : W5 m ρ c (Proc.devRef .tc main_arg10) = m ((c : Thread nD τ).loc main_arg10) :=
  arg_W5 m ρ c main_arg10 (by not_written hostOps0) (by decide) (by not_written hostOps1) (by not_written hostOps1_1) (by decide)
theorem arg11_W5 (c : Dev nD) : W5 m ρ c (Proc.devRef .tc main_arg11) = m ((c : Thread nD τ).loc main_arg11) :=
  arg_W5 m ρ c main_arg11 (by not_written hostOps0) (by decide) (by not_written hostOps1) (by not_written hostOps1_1) (by decide)

/-- The third region's activations: the second layer of what the second region left. -/
theorem act_W6 (c : Dev nD) :
    W6 m ρ c (Proc.devRef .tc main_v61)
      = layer2K (W5 m ρ c (Proc.devRef .tc main_v45)) (m ((c : Thread nD τ).loc main_arg1)) (m ((c : Thread nD τ).loc main_arg6)) := by
  show StableHlo.after hostOps2 (W5 m ρ c) (Proc.devRef .tc main_v61) = _
  host_results
  rw [src_W5 m ρ c, dst_W5 m ρ c, norm_W5 m ρ c, arg6_W5 m ρ c]
  rfl

/-- The rule bias as the one-row table the third region takes. -/
theorem be_W6 (c : Dev nD) :
    W6 m ρ c (Proc.devRef .tc main_v62) = shapeCast S1x3 (m ((c : Thread nD τ).loc main_arg8)) shapeCasts_S3_S1x3 := by
  show StableHlo.after hostOps2 (W5 m ρ c) (Proc.devRef .tc main_v62) = _
  host_results
  rw [arg8_W5 m ρ c]
  rfl
/-- The gate bias as a one-entry table. -/
theorem bg_W6 (c : Dev nD) :
    W6 m ρ c (Proc.devRef .tc main_v63) = shapeCast S1x1 (m ((c : Thread nD τ).loc main_arg10)) shapeCasts_S1_S1x1 := by
  show StableHlo.after hostOps2 (W5 m ρ c) (Proc.devRef .tc main_v63) = _
  host_results
  rw [arg10_W5 m ρ c]
  rfl
/-- The rule weight as a one-entry table. -/
theorem rw_W6 (c : Dev nD) :
    W6 m ρ c (Proc.devRef .tc main_v64) = shapeCast S1x1 (m ((c : Thread nD τ).loc main_arg11)) shapeCasts_S1_S1x1 := by
  show StableHlo.after hostOps2 (W5 m ρ c) (Proc.devRef .tc main_v64) = _
  host_results
  rw [arg11_W5 m ρ c]
  rfl
theorem arg7_W6 (c : Dev nD) : W6 m ρ c (Proc.devRef .tc main_arg7) = m ((c : Thread nD τ).loc main_arg7) :=
  (W6_keep m ρ c main_arg7 (by not_written hostOps2)).trans (arg7_W5 m ρ c)
theorem arg9_W6 (c : Dev nD) : W6 m ρ c (Proc.devRef .tc main_arg9) = m ((c : Thread nD τ).loc main_arg9) :=
  (W6_keep m ρ c main_arg9 (by not_written hostOps2)).trans (arg9_W5 m ρ c)

end Cert.KernelIdeal.Whole

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Region0.lean ====
/-
  The first linear layer's region: a grid of ten points, point `t` multiplying rows 5000·t … 5000·t + 4999 of the
  feature table by the whole weight matrix. Entry (r, j) of a block's product is the sum over k of a row entry times a
  column entry, and a row of a block is a row of the table, so the ten blocks are the ten row bands of the one product
  `X · W`; the bands tile the [50000, 128] output, which therefore ends as that product, index by index.
-/
import proofs.«123183_j1571958030448_2_alg».proof.Proof.Gen.KernelIdeal.Frame
import proofs.«123183_j1571958030448_2_alg».proof.Proof.LibDense

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- An entry of a product reads one row of the left operand and one column of the right: operands that agree there
    give the same entry. -/
theorem prod_congr {n n' K d : ℕ} (a : (⟨2, ![n, K]⟩ : Shape).Idx → EReal) (a' : (⟨2, ![n', K]⟩ : Shape).Idx → EReal)
    (w w' : (⟨2, ![K, d]⟩ : Shape).Idx → EReal) (i : (⟨2, ![n, d]⟩ : Shape).Idx) (i' : (⟨2, ![n', d]⟩ : Shape).Idx)
    (ha : ∀ k : Fin K, a (ix2 (i 0) k) = a' (ix2 (i' 0) k)) (hw : ∀ k : Fin K, w (ix2 k (i 1)) = w' (ix2 k (i' 1))) :
    Cert.LibDense.prod a w i = Cert.LibDense.prod a' w' i' := by
  unfold Cert.LibDense.prod
  exact Finset.sum_congr rfl fun k _ => congrArg₂ (· * ·) (ha k) (hw k)

theorem off00 : (![0, 0] : Fin 2 → Nat) = fun _ => 0 := funext fun a => by fin_cases a <;> rfl

/-- The body's stored value is the product of its two loaded blocks: rounding an operand to bf16 changes nothing on
    the extended reals, and the accumulator starts at zero. -/
theorem pay0_apply (x0 : Vec Ideal S5000x256 .f32) (x1 : Vec Ideal S256x128 .f32) (i : S5000x128.Idx) :
    k0_pay1 x0 x1 i = Cert.LibDense.prod x0 x1 i := by
  unfold k0_pay1
  exact Cert.LibDense.matmul_plain (M := 5000) (K := 256) (N := 128) (φ₁ := .bf16) (φ₂ := .bf16) x0 x1 i

/-- Where the three windows' blocks sit, decided over the ten grid points: the row operand and the output move
    together down the rows, the weight stays. -/
theorem idx0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point `t` writes back is block `t` of the product of the two arrays as the region finds them. -/
theorem flushed0 (c : Dev nD) (t : Fin cfg0.N) :
    (dat0 V c).flushed 2 t
      = ((cfg0.win 2).blk t).view.read (Elt Ideal) (Cert.LibDense.prod (V c main_arg0) (V c main_arg3)) := by
  show (cfg0.win 2).cut (grid0.coords t) ((dat0 V c).after 2 t) = _
  rw [after0_2]
  unfold out0_2
  rw [View.canon_unit_zero off00]
  simp only [View.ld_unit_zero (S := S5000x256) off00, View.ld_unit_zero (S := S256x128) off00]
  obtain ⟨e0, e1, e2, e3, e4, e5⟩ := idx0 t
  funext j
  refine (pay0_apply (iblk0 V c 0 t) (iblk0 V c 1 t) j).trans ?_
  refine prod_congr (iblk0 V c 0 t) (V c main_arg0) (iblk0 V c 1 t) (V c main_arg3) j (((cfg0.win 2).blk t).view.emb j) (fun k => ?_) (fun k => ?_)
  · show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · show V c main_arg3 (((cfg0.win 1).blk t).view.emb (ix2 k (j 1))) = _
    refine congrArg (V c main_arg3) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- An index of the output is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Every row of the output lies in the band of the point `row / 5000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5⟩ := idx0 t
  have e5' : win0_2.index t (0 : Fin 2) = (i 0).val / 5000 := e5
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is the product of the two arrays the region found. -/
theorem final0 (c : Dev nD) :
    (dat0 V c).arrAt 2 cfg0.N = Cert.LibDense.prod (V c main_arg0) (V c main_arg3) :=
  (dat0 V c).arrAt_eq_of_cover 2 _ (fun t _ => flushed0 V c t) cover0

end Cert.KernelIdeal.Whole

end
-- ==== Proof.Region1.lean ====
/-
  The second linear layer's region: ten points again, point `t` multiplying rows 5000·t … 5000·t + 4999 of the hidden
  activations by the whole second weight matrix. As for the first layer the ten blocks are the row bands of one product,
  and they tile the [50000, 64] output.
-/
import proofs.«123183_j1571958030448_2_alg».proof.Proof.Region0

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's stored value is the product of its two loaded blocks (the cast of the left block to its own shape and
    the roundings to bf16 change nothing on the extended reals). -/
theorem pay1_apply (x0 : Vec Ideal S5000x128 .f32) (x1 : Vec Ideal S128x64 .f32) (i : S5000x64.Idx) :
    k1_pay1 x0 x1 i = Cert.LibDense.prod x0 x1 i := by
  unfold k1_pay1
  refine (Cert.LibDense.matmul_plain (M := 5000) (K := 128) (N := 64) (φ₁ := .bf16) (φ₂ := .bf16)
    (shapeCast S5000x128 x0 shapeCasts_S5000x128_S5000x128) x1 i).trans ?_
  rw [shapeCast_self]

theorem idx1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- What point `t` writes back is block `t` of the product of the two arrays as the region finds them. -/
theorem flushed1 (c : Dev nD) (t : Fin cfg1.N) :
    (dat1 V c).flushed 2 t
      = ((cfg1.win 2).blk t).view.read (Elt Ideal) (Cert.LibDense.prod (V c main_v44) (V c main_arg5)) := by
  show (cfg1.win 2).cut (grid1.coords t) ((dat1 V c).after 2 t) = _
  rw [after1_2]
  unfold out1_2
  rw [View.canon_unit_zero off00]
  simp only [View.ld_unit_zero (S := S5000x128) off00, View.ld_unit_zero (S := S128x64) off00]
  obtain ⟨e0, e1, e2, e3, e4, e5⟩ := idx1 t
  funext j
  refine (pay1_apply (iblk1 V c 0 t) (iblk1 V c 1 t) j).trans ?_
  refine prod_congr (iblk1 V c 0 t) (V c main_v44) (iblk1 V c 1 t) (V c main_arg5) j (((cfg1.win 2).blk t).view.emb j) (fun k => ?_) (fun k => ?_)
  · show V c main_v44 (((cfg1.win 0).blk t).view.emb (ix2 (j 0) k)) = _
    refine congrArg (V c main_v44) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_arg5 (((cfg1.win 1).blk t).view.emb (ix2 k (j 1))) = _
    refine congrArg (V c main_arg5) (funext fun a => Fin.ext ?_)
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega

theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- Every row of the output lies in the band of the point `row / 5000`. -/
theorem cover1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨e0, e1, e2, e3, e4, e5⟩ := idx1 t
  have e5' : win1_2.index t (0 : Fin 2) = (i 0).val / 5000 := e5
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The output array after the region is the product of the two arrays the region found. -/
theorem final1 (c : Dev nD) :
    (dat1 V c).arrAt 2 cfg1.N = Cert.LibDense.prod (V c main_v44) (V c main_arg5) :=
  (dat1 V c).arrAt_eq_of_cover 2 _ (fun t _ => flushed1 V c t) cover1

end Cert.KernelIdeal.Whole

end
-- ==== Proof.LibLogSoftmax.lean ====
/-
  The row-wise log-softmax on the extended reals, as both programs compute it, and the two column forms it needs.

  For a row `z : Fin d → EReal`: its maximum `M` is taken as the fold of `max` over the row from the word of minus
  infinity, joined once more with that word; the shifted row is `z k - M`; the result at column `q` is
  `(z q - M) - log (∑ k, exp (z k - M))`. Nothing here needs the entries to be finite: the statement is only that the
  result at a row depends on that row alone.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibLogSoftmax

open Idealize.ShloMosaic Idealize.ShloMosaic.ValueIdx

/-- The value of the word of minus infinity. -/
abbrev negInf : EReal := Ideal.ofBits .f32 0xFF800000#32

/-- A row's maximum: the fold of `max` from minus infinity, joined with minus infinity. -/
def rowMax {d : ℕ} (row : Fin d → EReal) : EReal :=
  max negInf ((Finset.univ : Finset (Fin d)).fold max negInf row)

/-- The log-softmax of a row at column `q`. -/
def lsmRow {d : ℕ} (row : Fin d → EReal) (q : Fin d) : EReal :=
  (row q - rowMax row) - Ideal.log (∑ k : Fin d, Ideal.exp (row k - rowMax row))

/-- Row-wise log-softmax of an `[n, d]` array. -/
def logSoftmax {n d : ℕ} (z : (⟨2, ![n, d]⟩ : Shape).Idx → EReal) : (⟨2, ![n, d]⟩ : Shape).Idx → EReal :=
  fun i => lsmRow (fun k => z (ix2 (i 0) k)) (i 1)

/-- Two arrays that agree along a row (each its own row) have the same log-softmax at any column of it. -/
theorem logSoftmax_congr {n n' d : ℕ} (z : (⟨2, ![n, d]⟩ : Shape).Idx → EReal) (z' : (⟨2, ![n', d]⟩ : Shape).Idx → EReal)
    (i : (⟨2, ![n, d]⟩ : Shape).Idx) (i' : (⟨2, ![n', d]⟩ : Shape).Idx) (hcol : (i 1).val = (i' 1).val)
    (hrow : ∀ k : Fin d, z (ix2 (i 0) k) = z' (ix2 (i' 0) k)) : logSoftmax z i = logSoftmax z' i' := by
  unfold logSoftmax
  have hr : (fun k : Fin d => z (ix2 (i 0) k)) = fun k : Fin d => z' (ix2 (i' 0) k) := funext hrow
  have hc : (i 1 : Fin d) = (i' 1 : Fin d) := Fin.ext hcol
  rw [hr, hc]

/-! ## The two column forms: a vector as a column, and a column broadcast along the rows -/

/-- A vector `v : [n]` cast to the column `[n, 1]`, at (r, 0), is `v r`. -/
theorem col_cast {n : ℕ} (v : (⟨1, ![n]⟩ : Shape).Idx → EReal) (h : (⟨1, ![n]⟩ : Shape).ShapeCasts ⟨2, ![n, 1]⟩)
    (y : (⟨2, ![n, 1]⟩ : Shape).Idx) : shapeCast ⟨2, ![n, 1]⟩ v h y = v (ix1 (y 0)) := by
  refine shapeCast_apply v h y (ix1 (y 0)) ?_
  rw [Shape.rowMajor_val_one, Shape.rowMajor_val_two]
  have h1 : (y 1).val < 1 := idx2_lt1 y
  show (y 0).val = (y 0).val * 1 + (y 1).val
  omega

/-- A column `u : [n, 1]` broadcast to `[n, d]`, at (r, j), is `u (r, 0)`. -/
theorem col_bcast {n d : ℕ} (u : (⟨2, ![n, 1]⟩ : Shape).Idx → EReal) (h : (⟨2, ![n, 1]⟩ : Shape).Broadcasts ⟨2, ![n, d]⟩)
    (i : (⟨2, ![n, d]⟩ : Shape).Idx) : broadcastTo ⟨2, ![n, d]⟩ u h i = u (ix2 (i 0) ⟨0, Nat.one_pos⟩) := by
  refine broadcastTo_apply u h i (ix2 (i 0) ⟨0, Nat.one_pos⟩) (fun a => ?_)
  match a with
  | ⟨0, _⟩ =>
    show (i 0).val = if n = 1 then 0 else (i 0).val
    have hlt : (i 0).val < n := idx2_lt0 i
    split
    · omega
    · rfl
  | ⟨1, _⟩ => exact (if_pos rfl).symm

end Cert.LibLogSoftmax

end
-- ==== Proof.KeRow.lean ====
/-
  The knowledge-enhancement gate and the log-softmax, row by row, on the extended reals.

  For a row `z` of 64 activations: the rule activations are `r j = (∑ k, z k · We (k, j)) + be j` (three of them), the gate
  is `g = logistic ((∑ j, r j · Wg (j, 0)) + bg)`, the enhanced row is `z k + g · rw`, and the result is its log-softmax.
  Everything at a row depends on that row alone. The second half of the file reads the vector unit's spelling of these
  (a lane maximum and a lane sum kept as columns, columns broadcast back along the rows, a bias row broadcast down the
  rows, products into a zero accumulator) at an entry `(p, q)`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«123183_j1571958030448_2_alg».proof.Proof.LibDense
import proofs.«123183_j1571958030448_2_alg».proof.Proof.LibLogSoftmax

noncomputable section

namespace Cert.KeRow

open Idealize.ShloMosaic Idealize.ShloMosaic.ValueIdx Cert.LibLogSoftmax

/-- The one coordinate of an axis of extent one. -/
abbrev z1 : Fin 1 := ⟨0, Nat.one_pos⟩

/-- The gate of a row. -/
def gateRow (row : Fin 64 → EReal) (we : (⟨2, ![64, 3]⟩ : Shape).Idx → EReal) (be : Fin 3 → EReal)
    (wg : (⟨2, ![3, 1]⟩ : Shape).Idx → EReal) (bg : EReal) : EReal :=
  Ideal.logistic ((∑ j : Fin 3, ((∑ k : Fin 64, row k * we (ix2 k j)) + be j) * wg (ix2 j z1)) + bg)

/-- The enhanced row: every entry moved by the gate times the rule weight. -/
def enhRow (row : Fin 64 → EReal) (we : (⟨2, ![64, 3]⟩ : Shape).Idx → EReal) (be : Fin 3 → EReal)
    (wg : (⟨2, ![3, 1]⟩ : Shape).Idx → EReal) (bg rw : EReal) : Fin 64 → EReal :=
  fun k => row k + gateRow row we be wg bg * rw

/-- The result at column `q` of a row. -/
def keRow (row : Fin 64 → EReal) (we : (⟨2, ![64, 3]⟩ : Shape).Idx → EReal) (be : Fin 3 → EReal)
    (wg : (⟨2, ![3, 1]⟩ : Shape).Idx → EReal) (bg rw : EReal) (q : Fin 64) : EReal :=
  lsmRow (enhRow row we be wg bg rw) q

/-- The whole `[n, 64]` array, row by row. -/
def ke {n : ℕ} (h : (⟨2, ![n, 64]⟩ : Shape).Idx → EReal) (we : (⟨2, ![64, 3]⟩ : Shape).Idx → EReal) (be : Fin 3 → EReal)
    (wg : (⟨2, ![3, 1]⟩ : Shape).Idx → EReal) (bg rw : EReal) : (⟨2, ![n, 64]⟩ : Shape).Idx → EReal :=
  fun i => keRow (fun k => h (ix2 (i 0) k)) we be wg bg rw (i 1)

/-- Two arrays that agree along a row (each its own row) give the same result at any column of it. -/
theorem ke_congr {n n' : ℕ} (h : (⟨2, ![n, 64]⟩ : Shape).Idx → EReal) (h' : (⟨2, ![n', 64]⟩ : Shape).Idx → EReal)
    (we : (⟨2, ![64, 3]⟩ : Shape).Idx → EReal) (be : Fin 3 → EReal) (wg : (⟨2, ![3, 1]⟩ : Shape).Idx → EReal) (bg rw : EReal)
    (i : (⟨2, ![n, 64]⟩ : Shape).Idx) (i' : (⟨2, ![n', 64]⟩ : Shape).Idx) (hcol : (i 1).val = (i' 1).val)
    (hrow : ∀ k : Fin 64, h (ix2 (i 0) k) = h' (ix2 (i' 0) k)) : ke h we be wg bg rw i = ke h' we be wg bg rw i' := by
  unfold ke
  have hr : (fun k : Fin 64 => h (ix2 (i 0) k)) = fun k : Fin 64 => h' (ix2 (i' 0) k) := funext hrow
  have hc : (i 1 : Fin 64) = (i' 1 : Fin 64) := Fin.ext hcol
  rw [hr, hc]

/-- The fold of `max` from minus infinity is at least minus infinity, so joining it with minus infinity once more
    changes nothing. -/
theorem rowMax_eq {d : ℕ} (row : Fin d → EReal) :
    rowMax row = (Finset.univ : Finset (Fin d)).fold max negInf row :=
  max_eq_right ((Finset.le_fold_max _).2 (Or.inl le_rfl))

/-! ## The vector unit's spelling, read at an entry -/

/-- The source index above row `p` of the result of a reduction along the columns, at column `k`. -/
theorem lift_row {n d : ℕ} (h : (⟨2, ![n, d]⟩ : Shape).Reduces [(1 : Fin 2)] ⟨1, ![n]⟩) (p : Fin n) (k : Fin d) :
    h.lift (ix1 p) k = ix2 p k := by
  funext c
  apply Fin.ext
  show h.liftVal (ix1 p) k.val c = (ix2 p k c).val
  unfold Shape.Reduces.liftVal
  match c with
  | ⟨0, hc⟩ =>
    have h1 : ¬ ((⟨0, hc⟩ : Fin (⟨2, ![n, d]⟩ : Shape).rank).val = (1 : Fin 2).val) := by show ¬ (0 = 1); omega
    have h2 : (⟨0, hc⟩ : Fin (⟨2, ![n, d]⟩ : Shape).rank).val < (1 : Fin 2).val := by show 0 < 1; omega
    rw [dif_neg h1, dif_pos h2]
  | ⟨1, hc⟩ =>
    have h1 : (⟨1, hc⟩ : Fin (⟨2, ![n, d]⟩ : Shape).rank).val = (1 : Fin 2).val := rfl
    rw [dif_pos h1]

/-- A lane maximum at row `p`: the fold of `max` over the row from the accumulator's value. -/
theorem rowmax_at {n d : ℕ} (src : FVec Ideal ⟨2, ![n, d]⟩ .f32) (h : (⟨2, ![n, d]⟩ : Shape).Reduces [(1 : Fin 2)] ⟨1, ![n]⟩)
    (hφ : FKind.Formats .f32) (hacc : (0xFF800000#32 : BitVec (FTy.bits .f32)) = FKind.maximumf.neutral .f32 hφ) (p : Fin n) :
    multiReduction .maximumf [(1 : Fin 2)] ⟨1, ![n]⟩ src 0xFF800000#32 h hφ hacc (ix1 p)
      = (Finset.univ : Finset (Fin d)).fold max negInf (fun k => src (ix2 p k)) := by
  refine (Ideal.multiReduction_maximumf_single src _ h hφ hacc (ix1 p)).trans ?_
  refine congrArg (fun f => (Finset.univ : Finset (Fin d)).fold max negInf f) (funext fun k => ?_)
  exact congrArg src (lift_row h p k)

/-- A lane sum at row `p`: the sum over the row. -/
theorem rowsum_at {n d : ℕ} (src : FVec Ideal ⟨2, ![n, d]⟩ .f32) (h : (⟨2, ![n, d]⟩ : Shape).Reduces [(1 : Fin 2)] ⟨1, ![n]⟩)
    (hφ : FKind.Formats .f32) (hacc : (0x00000000#32 : BitVec (FTy.bits .f32)) = FKind.add.neutral .f32 hφ) (p : Fin n) :
    multiReduction .add [(1 : Fin 2)] ⟨1, ![n]⟩ src 0x00000000#32 h hφ hacc (ix1 p) = ∑ k : Fin d, src (ix2 p k) := by
  refine (Ideal.multiReduction_add_single src _ h hφ hacc (ix1 p)).trans ?_
  exact Finset.sum_congr rfl fun k _ => congrArg src (lift_row h p k)

/-- The host's maximum along the rows from an initial value that denotes minus infinity, at row `r`: the fold of `max`
    over the row from minus infinity. -/
theorem hostRowMax {n d : ℕ} (Z : (⟨2, ![n, d]⟩ : Shape).Idx → EReal) (init : (⟨0, ![]⟩ : Shape).Idx → EReal)
    (hinit : ∀ i, init i = negInf) (h' : (⟨2, ![n, d]⟩ : Shape).ReducesTo [(1 : Fin 2)] ⟨1, ![n]⟩)
    (h : (⟨2, ![n, d]⟩ : Shape).Reduces [(1 : Fin 2)] ⟨1, ![n]⟩) (hu : 0 < (⟨0, ![]⟩ : Shape).numel) (r : Fin n) :
    Host.reduce (FloatOps.maximumf (F := Ideal) (φ := .f32)) Z init h' hu (ix1 r)
      = (Finset.univ : Finset (Fin d)).fold max negInf (fun k => Z (ix2 r k)) := by
  refine (Host.reduce_eq_fold_single (FloatOps.maximumf (F := Ideal) (φ := .f32)) Z init h' h hu (ix1 r)).trans ?_
  rw [hinit]
  refine congrArg (fun f => (Finset.univ : Finset (Fin d)).fold max negInf f) (funext fun k => ?_)
  exact congrArg Z (lift_row h r k)

/-- The vector unit's log-softmax of a block: the lane maximum as a column, broadcast back and subtracted; the lane
    sum of the exponentials as a column, its logarithm broadcast back and subtracted. -/
def lsmV {n d : ℕ} (z : FVec Ideal ⟨2, ![n, d]⟩ .f32) (hr : (⟨2, ![n, d]⟩ : Shape).Reduces [(1 : Fin 2)] ⟨1, ![n]⟩)
    (hc : (⟨1, ![n]⟩ : Shape).ShapeCasts ⟨2, ![n, 1]⟩) (hb : (⟨2, ![n, 1]⟩ : Shape).Broadcasts ⟨2, ![n, d]⟩) :
    FVec Ideal ⟨2, ![n, d]⟩ .f32 :=
  subf (subf z (broadcastTo ⟨2, ![n, d]⟩ (shapeCast ⟨2, ![n, 1]⟩ (multiReduction .maximumf [(1 : Fin 2)] ⟨1, ![n]⟩ z 0xFF800000#32 hr (.inl rfl) rfl) hc) hb))
    (broadcastTo ⟨2, ![n, d]⟩ (log (shapeCast ⟨2, ![n, 1]⟩ (multiReduction .add [(1 : Fin 2)] ⟨1, ![n]⟩
      (exp (subf z (broadcastTo ⟨2, ![n, d]⟩ (shapeCast ⟨2, ![n, 1]⟩ (multiReduction .maximumf [(1 : Fin 2)] ⟨1, ![n]⟩ z 0xFF800000#32 hr (.inl rfl) rfl) hc) hb)))
      0x00000000#32 hr (.inl rfl) rfl) hc)) hb)

/-- The row maximum, kept as a column and broadcast back, read at `(p, k)`. -/
theorem maxcol_at {n d : ℕ} (z : FVec Ideal ⟨2, ![n, d]⟩ .f32) (hr : (⟨2, ![n, d]⟩ : Shape).Reduces [(1 : Fin 2)] ⟨1, ![n]⟩)
    (hc : (⟨1, ![n]⟩ : Shape).ShapeCasts ⟨2, ![n, 1]⟩) (hb : (⟨2, ![n, 1]⟩ : Shape).Broadcasts ⟨2, ![n, d]⟩) (p : Fin n) (k : Fin d) :
    broadcastTo ⟨2, ![n, d]⟩ (shapeCast ⟨2, ![n, 1]⟩ (multiReduction .maximumf [(1 : Fin 2)] ⟨1, ![n]⟩ z 0xFF800000#32 hr (.inl rfl) rfl) hc) hb (ix2 p k)
      = rowMax (fun k => z (ix2 p k)) := by
  refine (col_bcast _ hb (ix2 p k)).trans ?_
  refine (col_cast _ hc (ix2 p z1)).trans ?_
  refine (rowmax_at z hr (.inl rfl) rfl p).trans ?_
  exact (rowMax_eq _).symm

/-- The vector unit's log-softmax at `(p, q)` is the log-softmax of row `p` at column `q`. -/
theorem lsmV_apply {n d : ℕ} (z : FVec Ideal ⟨2, ![n, d]⟩ .f32) (hr : (⟨2, ![n, d]⟩ : Shape).Reduces [(1 : Fin 2)] ⟨1, ![n]⟩)
    (hc : (⟨1, ![n]⟩ : Shape).ShapeCasts ⟨2, ![n, 1]⟩) (hb : (⟨2, ![n, 1]⟩ : Shape).Broadcasts ⟨2, ![n, d]⟩) (p : Fin n) (q : Fin d) :
    lsmV z hr hc hb (ix2 p q) = lsmRow (fun k => z (ix2 p k)) q := by
  have hS : multiReduction .add [(1 : Fin 2)] ⟨1, ![n]⟩
      (exp (subf z (broadcastTo ⟨2, ![n, d]⟩ (shapeCast ⟨2, ![n, 1]⟩ (multiReduction .maximumf [(1 : Fin 2)] ⟨1, ![n]⟩ z 0xFF800000#32 hr (.inl rfl) rfl) hc) hb)))
      0x00000000#32 hr (.inl rfl) rfl (ix1 p)
      = ∑ k : Fin d, Ideal.exp (z (ix2 p k) - rowMax (fun k => z (ix2 p k))) := by
    refine (rowsum_at _ hr (.inl rfl) rfl p).trans (Finset.sum_congr rfl fun k _ => ?_)
    show Ideal.exp (z (ix2 p k) - _) = _
    rw [maxcol_at z hr hc hb p k]
  have hL : broadcastTo ⟨2, ![n, d]⟩ (log (shapeCast ⟨2, ![n, 1]⟩ (multiReduction .add [(1 : Fin 2)] ⟨1, ![n]⟩
      (exp (subf z (broadcastTo ⟨2, ![n, d]⟩ (shapeCast ⟨2, ![n, 1]⟩ (multiReduction .maximumf [(1 : Fin 2)] ⟨1, ![n]⟩ z 0xFF800000#32 hr (.inl rfl) rfl) hc) hb)))
      0x00000000#32 hr (.inl rfl) rfl) hc)) hb (ix2 p q)
      = Ideal.log (∑ k : Fin d, Ideal.exp (z (ix2 p k) - rowMax (fun k => z (ix2 p k)))) := by
    refine (col_bcast _ hb (ix2 p q)).trans ?_
    show Ideal.log (shapeCast ⟨2, ![n, 1]⟩ _ hc (ix2 p z1)) = _
    rw [col_cast _ hc (ix2 p z1)]
    exact congrArg Ideal.log hS
  unfold lsmV
  show (z (ix2 p q) - _) - _ = _
  rw [maxcol_at z hr hc hb p q, hL]
  rfl

/-! ## The enhanced block, as the vector unit spells it -/

/-- A product into the zero accumulator with a bias row broadcast down the rows, at `(p, j)`. -/
theorem affine_at {n K d : ℕ} (a : FVec Ideal ⟨2, ![n, K]⟩ .f32) (w : FVec Ideal ⟨2, ![K, d]⟩ .f32) (b : FVec Ideal ⟨2, ![1, d]⟩ .f32)
    (hbf : FTy.bits .bf16 < FTy.bits .f32) (h1 : (⟨2, ![1, d]⟩ : Shape).ShapeCasts ⟨2, ![1, d]⟩)
    (hb : (⟨2, ![1, d]⟩ : Shape).Broadcasts ⟨2, ![n, d]⟩) (p : Fin n) (j : Fin d) :
    addf (matmul (DotDims.plain n K d) none (truncf .bf16 a hbf) (truncf .bf16 w hbf) (constant ⟨2, ![n, d]⟩ .f32 0x00000000#32))
        (broadcastTo ⟨2, ![n, d]⟩ (shapeCast ⟨2, ![1, d]⟩ b h1) hb) (ix2 p j)
      = (∑ k : Fin K, a (ix2 p k) * w (ix2 k j)) + b (ix2 (0 : Fin 1) j) := by
  show (matmul (DotDims.plain n K d) none (truncf .bf16 a hbf) (truncf .bf16 w hbf) (constant ⟨2, ![n, d]⟩ .f32 0x00000000#32) (ix2 p j) : EReal)
      + (broadcastTo ⟨2, ![n, d]⟩ (shapeCast ⟨2, ![1, d]⟩ b h1) hb (ix2 p j) : EReal) = _
  refine congrArg₂ (· + ·) ?_ ?_
  · exact Cert.LibDense.matmul_plain (φ₁ := .bf16) (φ₂ := .bf16) a w (ix2 p j)
  · refine (broadcastTo_1b_ab_apply _ hb p j).trans ?_
    rw [shapeCast_self]

/-- The block of rule activations: the activations (cast to their own shape, rounded to bf16) times the rule weights
    into a zero accumulator, plus the rule bias broadcast down the rows. -/
def ruleV {n : ℕ} (v0 : FVec Ideal ⟨2, ![n, 64]⟩ .f32) (v2 : FVec Ideal ⟨2, ![64, 3]⟩ .f32) (v6 : FVec Ideal ⟨2, ![1, 3]⟩ .f32)
    (h00 : (⟨2, ![n, 64]⟩ : Shape).ShapeCasts ⟨2, ![n, 64]⟩) (hbf : FTy.bits .bf16 < FTy.bits .f32)
    (h13 : (⟨2, ![1, 3]⟩ : Shape).ShapeCasts ⟨2, ![1, 3]⟩) (hb13 : (⟨2, ![1, 3]⟩ : Shape).Broadcasts ⟨2, ![n, 3]⟩) : FVec Ideal ⟨2, ![n, 3]⟩ .f32 :=
  addf (matmul (DotDims.plain n 64 3) none (truncf .bf16 (shapeCast ⟨2, ![n, 64]⟩ v0 h00) hbf) (truncf .bf16 v2 hbf) (constant ⟨2, ![n, 3]⟩ .f32 0x00000000#32))
    (broadcastTo ⟨2, ![n, 3]⟩ (shapeCast ⟨2, ![1, 3]⟩ v6 h13) hb13)

/-- The gate column: the logistic of the rule activations times the gate weights plus the gate bias. -/
def gateV {n : ℕ} (v0 : FVec Ideal ⟨2, ![n, 64]⟩ .f32) (v2 : FVec Ideal ⟨2, ![64, 3]⟩ .f32) (v6 : FVec Ideal ⟨2, ![1, 3]⟩ .f32)
    (v10 : FVec Ideal ⟨2, ![3, 1]⟩ .f32) (v14 : FVec Ideal ⟨2, ![1, 1]⟩ .f32)
    (h00 : (⟨2, ![n, 64]⟩ : Shape).ShapeCasts ⟨2, ![n, 64]⟩) (hbf : FTy.bits .bf16 < FTy.bits .f32)
    (h13 : (⟨2, ![1, 3]⟩ : Shape).ShapeCasts ⟨2, ![1, 3]⟩) (hb13 : (⟨2, ![1, 3]⟩ : Shape).Broadcasts ⟨2, ![n, 3]⟩)
    (h11 : (⟨2, ![1, 1]⟩ : Shape).ShapeCasts ⟨2, ![1, 1]⟩) (hb11 : (⟨2, ![1, 1]⟩ : Shape).Broadcasts ⟨2, ![n, 1]⟩) : FVec Ideal ⟨2, ![n, 1]⟩ .f32 :=
  logistic (addf
    (matmul (DotDims.plain n 3 1) none (truncf .bf16 (ruleV v0 v2 v6 h00 hbf h13 hb13) hbf) (truncf .bf16 v10 hbf) (constant ⟨2, ![n, 1]⟩ .f32 0x00000000#32))
    (broadcastTo ⟨2, ![n, 1]⟩ (shapeCast ⟨2, ![1, 1]⟩ v14 h11) hb11))

/-- The block of enhanced activations: the activations plus the gate column times the rule weight, broadcast along
    the rows. -/
def enhV {n : ℕ} (v0 : FVec Ideal ⟨2, ![n, 64]⟩ .f32) (v2 : FVec Ideal ⟨2, ![64, 3]⟩ .f32) (v6 : FVec Ideal ⟨2, ![1, 3]⟩ .f32)
    (v10 : FVec Ideal ⟨2, ![3, 1]⟩ .f32) (v14 v19 : FVec Ideal ⟨2, ![1, 1]⟩ .f32)
    (h00 : (⟨2, ![n, 64]⟩ : Shape).ShapeCasts ⟨2, ![n, 64]⟩) (hbf : FTy.bits .bf16 < FTy.bits .f32)
    (h13 : (⟨2, ![1, 3]⟩ : Shape).ShapeCasts ⟨2, ![1, 3]⟩) (hb13 : (⟨2, ![1, 3]⟩ : Shape).Broadcasts ⟨2, ![n, 3]⟩)
    (h11 : (⟨2, ![1, 1]⟩ : Shape).ShapeCasts ⟨2, ![1, 1]⟩) (hb11 : (⟨2, ![1, 1]⟩ : Shape).Broadcasts ⟨2, ![n, 1]⟩)
    (hbc : (⟨2, ![n, 1]⟩ : Shape).Broadcasts ⟨2, ![n, 64]⟩) : FVec Ideal ⟨2, ![n, 64]⟩ .f32 :=
  addf (shapeCast ⟨2, ![n, 64]⟩ v0 h00)
    (broadcastTo ⟨2, ![n, 64]⟩
      (mulf (gateV v0 v2 v6 v10 v14 h00 hbf h13 hb13 h11 hb11) (broadcastTo ⟨2, ![n, 1]⟩ (shapeCast ⟨2, ![1, 1]⟩ v19 h11) hb11)) hbc)

theorem ruleV_apply {n : ℕ} (v0 : FVec Ideal ⟨2, ![n, 64]⟩ .f32) (v2 : FVec Ideal ⟨2, ![64, 3]⟩ .f32) (v6 : FVec Ideal ⟨2, ![1, 3]⟩ .f32)
    (h00 : (⟨2, ![n, 64]⟩ : Shape).ShapeCasts ⟨2, ![n, 64]⟩) (hbf : FTy.bits .bf16 < FTy.bits .f32)
    (h13 : (⟨2, ![1, 3]⟩ : Shape).ShapeCasts ⟨2, ![1, 3]⟩) (hb13 : (⟨2, ![1, 3]⟩ : Shape).Broadcasts ⟨2, ![n, 3]⟩) (p : Fin n) (j : Fin 3) :
    ruleV v0 v2 v6 h00 hbf h13 hb13 (ix2 p j) = (∑ k : Fin 64, v0 (ix2 p k) * v2 (ix2 k j)) + v6 (ix2 z1 j) := by
  unfold ruleV
  refine (affine_at (shapeCast ⟨2, ![n, 64]⟩ v0 h00) v2 v6 hbf h13 hb13 p j).trans ?_
  rw [shapeCast_self]
  rfl

theorem gateV_apply {n : ℕ} (v0 : FVec Ideal ⟨2, ![n, 64]⟩ .f32) (v2 : FVec Ideal ⟨2, ![64, 3]⟩ .f32) (v6 : FVec Ideal ⟨2, ![1, 3]⟩ .f32)
    (v10 : FVec Ideal ⟨2, ![3, 1]⟩ .f32) (v14 : FVec Ideal ⟨2, ![1, 1]⟩ .f32)
    (h00 : (⟨2, ![n, 64]⟩ : Shape).ShapeCasts ⟨2, ![n, 64]⟩) (hbf : FTy.bits .bf16 < FTy.bits .f32)
    (h13 : (⟨2, ![1, 3]⟩ : Shape).ShapeCasts ⟨2, ![1, 3]⟩) (hb13 : (⟨2, ![1, 3]⟩ : Shape).Broadcasts ⟨2, ![n, 3]⟩)
    (h11 : (⟨2, ![1, 1]⟩ : Shape).ShapeCasts ⟨2, ![1, 1]⟩) (hb11 : (⟨2, ![1, 1]⟩ : Shape).Broadcasts ⟨2, ![n, 1]⟩) (p : Fin n) :
    gateV v0 v2 v6 v10 v14 h00 hbf h13 hb13 h11 hb11 (ix2 p z1)
      = gateRow (fun k => v0 (ix2 p k)) v2 (fun j => v6 (ix2 z1 j)) v10 (v14 (ix2 z1 z1)) := by
  unfold gateV gateRow
  show Ideal.logistic (addf
    (matmul (DotDims.plain n 3 1) none (truncf .bf16 (ruleV v0 v2 v6 h00 hbf h13 hb13) hbf) (truncf .bf16 v10 hbf) (constant ⟨2, ![n, 1]⟩ .f32 0x00000000#32))
    (broadcastTo ⟨2, ![n, 1]⟩ (shapeCast ⟨2, ![1, 1]⟩ v14 h11) hb11) (ix2 p z1)) = _
  refine congrArg Ideal.logistic ?_
  refine (affine_at (ruleV v0 v2 v6 h00 hbf h13 hb13) v10 v14 hbf h11 hb11 p z1).trans ?_
  refine congrArg₂ (· + ·) (Finset.sum_congr rfl fun j _ => ?_) rfl
  exact congrArg (· * v10 (ix2 j z1)) (ruleV_apply v0 v2 v6 h00 hbf h13 hb13 p j)

/-- The enhanced block at `(p, k)` is the enhanced row `p` at `k`. -/
theorem enhV_apply {n : ℕ} (v0 : FVec Ideal ⟨2, ![n, 64]⟩ .f32) (v2 : FVec Ideal ⟨2, ![64, 3]⟩ .f32) (v6 : FVec Ideal ⟨2, ![1, 3]⟩ .f32)
    (v10 : FVec Ideal ⟨2, ![3, 1]⟩ .f32) (v14 v19 : FVec Ideal ⟨2, ![1, 1]⟩ .f32)
    (h00 : (⟨2, ![n, 64]⟩ : Shape).ShapeCasts ⟨2, ![n, 64]⟩) (hbf : FTy.bits .bf16 < FTy.bits .f32)
    (h13 : (⟨2, ![1, 3]⟩ : Shape).ShapeCasts ⟨2, ![1, 3]⟩) (hb13 : (⟨2, ![1, 3]⟩ : Shape).Broadcasts ⟨2, ![n, 3]⟩)
    (h11 : (⟨2, ![1, 1]⟩ : Shape).ShapeCasts ⟨2, ![1, 1]⟩) (hb11 : (⟨2, ![1, 1]⟩ : Shape).Broadcasts ⟨2, ![n, 1]⟩)
    (hbc : (⟨2, ![n, 1]⟩ : Shape).Broadcasts ⟨2, ![n, 64]⟩) (p : Fin n) (k : Fin 64) :
    enhV v0 v2 v6 v10 v14 v19 h00 hbf h13 hb13 h11 hb11 hbc (ix2 p k)
      = enhRow (fun k => v0 (ix2 p k)) v2 (fun j => v6 (ix2 z1 j)) v10 (v14 (ix2 z1 z1)) (v19 (ix2 z1 z1)) k := by
  unfold enhV enhRow
  show (shapeCast ⟨2, ![n, 64]⟩ v0 h00 (ix2 p k) : EReal)
    + (broadcastTo ⟨2, ![n, 64]⟩ (mulf (gateV v0 v2 v6 v10 v14 h00 hbf h13 hb13 h11 hb11) (broadcastTo ⟨2, ![n, 1]⟩ (shapeCast ⟨2, ![1, 1]⟩ v19 h11) hb11)) hbc (ix2 p k) : EReal) = _
  refine congrArg₂ (· + ·) ?_ ?_
  · rw [shapeCast_self]
  · refine (col_bcast _ hbc (ix2 p k)).trans ?_
    show (gateV v0 v2 v6 v10 v14 h00 hbf h13 hb13 h11 hb11 (ix2 p z1) : EReal)
      * (broadcastTo ⟨2, ![n, 1]⟩ (shapeCast ⟨2, ![1, 1]⟩ v19 h11) hb11 (ix2 p z1) : EReal) = _
    refine congrArg₂ (· * ·) (gateV_apply v0 v2 v6 v10 v14 h00 hbf h13 hb13 h11 hb11 p) ?_
    refine (broadcastTo_1b_ab_apply _ hb11 p z1).trans ?_
    rw [shapeCast_self]
    rfl

end Cert.KeRow

end
-- ==== Proof.Region2.lean ====
/-
  The third region: the knowledge-enhancement gate, the gated residual and the log-softmax, fused, over a grid of 25
  points; point `t` handles rows 2000·t … 2000·t + 1999 of the activations, the five small operands (rule weights and
  bias, gate weights and bias, rule weight) are whole at every point. The result at a row depends on that row of the
  activations alone, so a block's result is the corresponding band of the whole array's row-by-row result, and the 25
  bands tile the [50000, 64] output.
-/
import proofs.«123183_j1571958030448_2_alg».proof.Proof.Region0
import proofs.«123183_j1571958030448_2_alg».proof.Proof.KeRow

set_option maxRecDepth 16384

noncomputable section

namespace Cert.KernelIdeal.Whole

open Cert.KernelIdeal Cert.KernelIdeal.Gen Cert.KeRow
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's stored value is the vector unit's log-softmax of the enhanced block. -/
theorem pay2_eq (v0 : Vec Ideal S2000x64 .f32) (v2 : Vec Ideal S64x3 .f32) (v6 : Vec Ideal S1x3 .f32) (v10 : Vec Ideal S3x1 .f32)
    (v14 v19 : Vec Ideal S1x1 .f32) :
    k2_pay1 v0 v2 v6 v10 v14 v19
      = lsmV (enhV v0 v2 v6 v10 v14 v19 shapeCasts_S2000x64_S2000x64 bitsLt_bf16_f32 shapeCasts_S1x3_S1x3 broadcasts_S1x3_S2000x3
          shapeCasts_S1x1_S1x1 broadcasts_S1x1_S2000x1 broadcasts_S2000x1_S2000x64)
        reduces_S2000x64_S2000 shapeCasts_S2000_S2000x1 broadcasts_S2000x1_S2000x64 := rfl

/-- The stored value at `(p, q)`: the result of row `p` of the activation block at column `q`. -/
theorem pay2_apply (v0 : Vec Ideal S2000x64 .f32) (v2 : Vec Ideal S64x3 .f32) (v6 : Vec Ideal S1x3 .f32) (v10 : Vec Ideal S3x1 .f32)
    (v14 v19 : Vec Ideal S1x1 .f32) (p : Fin 2000) (q : Fin 64) :
    k2_pay1 v0 v2 v6 v10 v14 v19 (ix2 p q)
      = keRow (fun k => v0 (ix2 p k)) v2 (fun j => v6 (ix2 z1 j)) v10 (v14 (ix2 z1 z1)) (v19 (ix2 z1 z1)) q := by
  rw [pay2_eq]
  refine (lsmV_apply _ reduces_S2000x64_S2000 shapeCasts_S2000_S2000x1 broadcasts_S2000x1_S2000x64 p q).trans ?_
  unfold keRow
  refine congrArg (fun r => Cert.LibLogSoftmax.lsmRow r q) (funext fun k => ?_)
  exact enhV_apply v0 v2 v6 v10 v14 v19 shapeCasts_S2000x64_S2000x64 bitsLt_bf16_f32 shapeCasts_S1x3_S1x3 broadcasts_S1x3_S2000x3
    shapeCasts_S1x1_S1x1 broadcasts_S1x1_S2000x1 broadcasts_S2000x1_S2000x64 p k

set_option maxHeartbeats 4000000 in
/-- Where the activations' and the output's blocks sit, decided over the 25 grid points: they move together down the rows. -/
theorem idx2 : ∀ t : Fin cfg2.N, win2_0.index t (0 : Fin 2) = win2_6.index t (0 : Fin 2) ∧ win2_0.index t (1 : Fin 2) = 0
    ∧ win2_6.index t (1 : Fin 2) = 0 ∧ win2_6.index t (0 : Fin 2) = t.val :=
  (by decide +kernel : ∀ t : Fin grid2.N, win2_0.index t (0 : Fin 2) = win2_6.index t (0 : Fin 2) ∧ win2_0.index t (1 : Fin 2) = 0
    ∧ win2_6.index t (1 : Fin 2) = 0 ∧ win2_6.index t (0 : Fin 2) = t.val)

set_option maxHeartbeats 4000000 in
/-- The five small operands' blocks stay at the origin at every point. -/
theorem idx2_1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
set_option maxHeartbeats 4000000 in
theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
set_option maxHeartbeats 4000000 in
theorem idx2_3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
set_option maxHeartbeats 4000000 in
theorem idx2_4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
set_option maxHeartbeats 4000000 in
theorem idx2_5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)

set_option maxHeartbeats 4000000 in
/-- What point `t` writes back is block `t` of the row-by-row result of the six arrays as the region finds them. -/
theorem flushed2 (c : Dev nD) (t : Fin cfg2.N) :
    (dat2 V c).flushed 6 t
      = ((cfg2.win 6).blk t).view.read (Elt Ideal)
          (ke (V c main_v61) (V c main_arg7) (fun j => V c main_v62 (ix2 z1 j)) (V c main_arg9) (V c main_v63 (ix2 z1 z1)) (V c main_v64 (ix2 z1 z1))) := by
  show (cfg2.win 6).cut (grid2.coords t) ((dat2 V c).after 6 t) = _
  rw [after2_6]
  unfold out2_6
  rw [View.canon_unit_zero off00]
  simp only [View.ld_unit_zero (S := S2000x64) off00, View.ld_unit_zero (S := S64x3) off00, View.ld_unit_zero (S := S1x3) off00,
    View.ld_unit_zero (S := S3x1) off00, View.ld_unit_zero (S := S1x1) off00]
  obtain ⟨e0, e1, e2, e3⟩ := idx2 t
  obtain ⟨a0, a1⟩ := idx2_1 t
  obtain ⟨b0, b1⟩ := idx2_2 t
  obtain ⟨c0, c1⟩ := idx2_3 t
  obtain ⟨d0, d1⟩ := idx2_4 t
  obtain ⟨f0, f1⟩ := idx2_5 t
  have h1 : iblk2 V c 1 t = V c main_arg7 := funext fun y => by
    show V c main_arg7 (((cfg2.win 1).blk t).view.emb y) = _
    refine congrArg (V c main_arg7) (funext fun a => Fin.ext ?_)
    match a with
    | ⟨0, _⟩ => show win2_1.index t (0 : Fin 2) * 64 + 1 * (y 0).val = (y 0).val; omega
    | ⟨1, _⟩ => show win2_1.index t (1 : Fin 2) * 3 + 1 * (y 1).val = (y 1).val; omega
  have h2 : iblk2 V c 2 t = V c main_v62 := funext fun y => by
    show V c main_v62 (((cfg2.win 2).blk t).view.emb y) = _
    refine congrArg (V c main_v62) (funext fun a => Fin.ext ?_)
    match a with
    | ⟨0, _⟩ => show win2_2.index t (0 : Fin 2) * 1 + 1 * (y 0).val = (y 0).val; omega
    | ⟨1, _⟩ => show win2_2.index t (1 : Fin 2) * 3 + 1 * (y 1).val = (y 1).val; omega
  have h3 : iblk2 V c 3 t = V c main_arg9 := funext fun y => by
    show V c main_arg9 (((cfg2.win 3).blk t).view.emb y) = _
    refine congrArg (V c main_arg9) (funext fun a => Fin.ext ?_)
    match a with
    | ⟨0, _⟩ => show win2_3.index t (0 : Fin 2) * 3 + 1 * (y 0).val = (y 0).val; omega
    | ⟨1, _⟩ => show win2_3.index t (1 : Fin 2) * 1 + 1 * (y 1).val = (y 1).val; omega
  have h4 : iblk2 V c 4 t = V c main_v63 := funext fun y => by
    show V c main_v63 (((cfg2.win 4).blk t).view.emb y) = _
    refine congrArg (V c main_v63) (funext fun a => Fin.ext ?_)
    match a with
    | ⟨0, _⟩ => show win2_4.index t (0 : Fin 2) * 1 + 1 * (y 0).val = (y 0).val; omega
    | ⟨1, _⟩ => show win2_4.index t (1 : Fin 2) * 1 + 1 * (y 1).val = (y 1).val; omega
  have h5 : iblk2 V c 5 t = V c main_v64 := funext fun y => by
    show V c main_v64 (((cfg2.win 5).blk t).view.emb y) = _
    refine congrArg (V c main_v64) (funext fun a => Fin.ext ?_)
    match a with
    | ⟨0, _⟩ => show win2_5.index t (0 : Fin 2) * 1 + 1 * (y 0).val = (y 0).val; omega
    | ⟨1, _⟩ => show win2_5.index t (1 : Fin 2) * 1 + 1 * (y 1).val = (y 1).val; omega
  funext j
  obtain ⟨p, q, rfl⟩ : ∃ (p : Fin 2000) (q : Fin 64), j = ix2 p q := ⟨j 0, j 1, eq_ix2 j⟩
  refine (pay2_apply (iblk2 V c 0 t) (iblk2 V c 1 t) (iblk2 V c 2 t) (iblk2 V c 3 t) (iblk2 V c 4 t) (iblk2 V c 5 t) p q).trans ?_
  rw [h1, h2, h3, h4, h5]
  show _ = keRow (fun k => V c main_v61 (ix2 ((((cfg2.win 6).blk t).view.emb (ix2 p q)) 0) k)) (V c main_arg7)
    (fun j => V c main_v62 (ix2 z1 j)) (V c main_arg9) (V c main_v63 (ix2 z1 z1)) (V c main_v64 (ix2 z1 z1)) ((((cfg2.win 6).blk t).view.emb (ix2 p q)) 1)
  have hq : (q : Fin 64) = ((((cfg2.win 6).blk t).view.emb (ix2 p q)) 1 : Fin 64) := Fin.ext (by
    show q.val = win2_6.index t (1 : Fin 2) * 64 + 1 * q.val; omega)
  have hrow : (fun k : Fin 64 => iblk2 V c 0 t (ix2 p k))
      = fun k : Fin 64 => V c main_v61 (ix2 ((((cfg2.win 6).blk t).view.emb (ix2 p q)) 0) k) := funext fun k => by
    show V c main_v61 (((cfg2.win 0).blk t).view.emb (ix2 p k)) = _
    refine congrArg (V c main_v61) (funext fun a => Fin.ext ?_)
    match a with
    | ⟨0, _⟩ => show win2_0.index t (0 : Fin 2) * 2000 + 1 * p.val = win2_6.index t (0 : Fin 2) * 2000 + 1 * p.val; omega
    | ⟨1, _⟩ => show win2_0.index t (1 : Fin 2) * 64 + 1 * k.val = k.val; omega
  rw [hrow, ← hq]

theorem mem_blk2 (t : Fin cfg2.N) (i : S50000x64.Idx) :
    i ∈ ((cfg2.win 6).blk t).view.set ↔ ∀ a : Fin 2, win2_6.index t a * S2000x64.size a ≤ (i a).val ∧ (i a).val < win2_6.index t a * S2000x64.size a + S2000x64.size a := by
  show i ∈ ((View.whole main_v65).slice (win2_6.rect t)).set ↔ _
  rw [View.set_slice_whole, Rect.mem_set_unit]
  exact Iff.rfl

/-- Every row of the output lies in the band of the point `row / 2000`. -/
theorem cover2 (i : S50000x64.Idx) :
    ∃ t : Fin cfg2.N, (cfg2.win 6).flush t = true ∧ i ∈ ((cfg2.win 6).blk t).view.set := by
  have hi0 : (i 0).val < 50000 := (i 0).isLt
  have hi1 : (i 1).val < 64 := (i 1).isLt
  have hN : cfg2.N = 25 := N_2
  let t : Fin cfg2.N := ⟨(i 0).val / 2000, by rw [hN]; omega⟩
  obtain ⟨e0, e1, e2, e3⟩ := idx2 t
  have e3' : win2_6.index t (0 : Fin 2) = (i 0).val / 2000 := e3
  refine ⟨t, flush2_6 t, ?_⟩
  rw [mem_blk2]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 64 ≤ (i 1).val ∧ (i 1).val < win2_6.index t (1 : Fin 2) * 64 + 64; omega

/-- The output array after the region is the row-by-row result of the arrays the region found. -/
theorem final2 (c : Dev nD) :
    (dat2 V c).arrAt 6 cfg2.N
      = ke (V c main_v61) (V c main_arg7) (fun j => V c main_v62 (ix2 z1 j)) (V c main_arg9) (V c main_v63 (ix2 z1 z1)) (V c main_v64 (ix2 z1 z1)) :=
  (dat2 V c).arrAt_eq_of_cover 6 _ (fun t _ => flushed2 V c t) cover2

end Cert.KernelIdeal.Whole

end
-- ==== Proof.KValue.lean ====
/-
  The idealized kernel's result as one function of its arguments.

  Region by region: the first region leaves `X · W1`; the host stretch after it turns that into the first layer's
  activations; the second region multiplies them by `W2`; the next stretch makes the second layer's activations; the third
  region turns every row of them into its gated, log-softmaxed row. Each step is a lemma of an earlier file; here they
  are chained, every buffer read at the boundary where its reader finds it.
-/
import proofs.«123183_j1571958030448_2_alg».proof.Proof.KHost
import proofs.«123183_j1571958030448_2_alg».proof.Proof.Region1
import proofs.«123183_j1571958030448_2_alg».proof.Proof.Region2

set_option maxRecDepth 16384

noncomputable section

namespace Cert.KernelIdeal.Whole

open Cert.KernelIdeal Cert.KernelIdeal.Gen Cert.KeRow Cert.LibDense
open Idealize.ShloMosaic Idealize.ShloMosaic.TcCoe Idealize.ShloMosaic.ValueIdx Idealize.SL.Sem

variable (m : (ℓ : Loc nD τ sig) → Buf (Elt Ideal) ℓ) (ρ : Dev nD → PrngReg)

/-- After the first region its output holds the product of the features and the first weight matrix. -/
theorem lin1 (c : Dev nD) :
    W2 m ρ c (Proc.devRef .tc main_v27)
      = prod (m ((c : Thread nD τ).loc main_arg0)) (m ((c : Thread nD τ).loc main_arg3)) := by
  show W2 m ρ c (Proc.devRef .tc (Pipeline.arrRef spec0 2)) = _
  refine (W2_arr m ρ c 2).trans ((final0 (V1 m ρ) c).trans ?_)
  show prod (W1 m ρ c (Proc.devRef .tc main_arg0)) (W1 m ρ c (Proc.devRef .tc main_arg3)) = _
  rw [arg0_W1 m ρ c, arg3_W1 m ρ c]

/-- After the second region its output holds the product of the first layer's activations and the second weight
    matrix. -/
theorem lin2 (c : Dev nD) :
    W5 m ρ c (Proc.devRef .tc main_v45)
      = prod (layer1K (F := Ideal) (prod (m ((c : Thread nD τ).loc main_arg0)) (m ((c : Thread nD τ).loc main_arg3)))
          (m ((c : Thread nD τ).loc main_arg1)) (m ((c : Thread nD τ).loc main_arg4))) (m ((c : Thread nD τ).loc main_arg5)) := by
  show W5 m ρ c (Proc.devRef .tc (Pipeline.arrRef spec1 2)) = _
  refine (W5_arr m ρ c 2).trans ((final1 (V4 m ρ) c).trans ?_)
  show prod (W4 m ρ c (Proc.devRef .tc main_v44)) (W4 m ρ c (Proc.devRef .tc main_arg5)) = _
  rw [hidden_W4 m ρ c, arg5_W4 m ρ c, lin1 m ρ c]

/-- The second layer's activations, as a function of the arguments. -/
def act2 (x0 : FVec Ideal S50000x256 .f32) (x1 : IVec S2x800000 32) (x3 : FVec Ideal S256x128 .f32) (x4 : FVec Ideal S128 .f32)
    (x5 : FVec Ideal S128x64 .f32) (x6 : FVec Ideal S64 .f32) : FVec Ideal S50000x64 .f32 :=
  layer2K (F := Ideal) (prod (layer1K (F := Ideal) (prod x0 x3) x1 x4) x5) x1 x6

/-- The result buffer after the last region. -/
theorem result (c : Dev nD) :
    W7 m ρ c (Proc.devRef .tc main_v65)
      = ke (act2 (m ((c : Thread nD τ).loc main_arg0)) (m ((c : Thread nD τ).loc main_arg1)) (m ((c : Thread nD τ).loc main_arg3))
              (m ((c : Thread nD τ).loc main_arg4)) (m ((c : Thread nD τ).loc main_arg5)) (m ((c : Thread nD τ).loc main_arg6)))
          (m ((c : Thread nD τ).loc main_arg7))
          (fun j => shapeCast S1x3 (m ((c : Thread nD τ).loc main_arg8)) shapeCasts_S3_S1x3 (ix2 z1 j))
          (m ((c : Thread nD τ).loc main_arg9))
          (shapeCast S1x1 (m ((c : Thread nD τ).loc main_arg10)) shapeCasts_S1_S1x1 (ix2 z1 z1))
          (shapeCast S1x1 (m ((c : Thread nD τ).loc main_arg11)) shapeCasts_S1_S1x1 (ix2 z1 z1)) := by
  show W7 m ρ c (Proc.devRef .tc (Pipeline.arrRef spec2 6)) = _
  refine (W7_arr m ρ c 6).trans ((final2 (V6 m ρ) c).trans ?_)
  show ke (W6 m ρ c (Proc.devRef .tc main_v61)) (W6 m ρ c (Proc.devRef .tc main_arg7))
      (fun j => W6 m ρ c (Proc.devRef .tc main_v62) (ix2 z1 j)) (W6 m ρ c (Proc.devRef .tc main_arg9))
      (W6 m ρ c (Proc.devRef .tc main_v63) (ix2 z1 z1)) (W6 m ρ c (Proc.devRef .tc main_v64) (ix2 z1 z1)) = _
  rw [act_W6 m ρ c, arg7_W6 m ρ c, be_W6 m ρ c, arg9_W6 m ρ c, bg_W6 m ρ c, rw_W6 m ρ c, lin2 m ρ c]
  rfl

end Cert.KernelIdeal.Whole

end
-- ==== Proof.RefTail.lean ====
/-
  The reference's last stretch — the knowledge-enhancement gate, the gated residual and jax's log-softmax — read row by
  row. With `h` the activations after the second layer: the rule activations are `h · We + be`, the gate is jax's
  expansion of the logistic, `1 / (1 + exp (−(· · Wg + bg)))`, which on the extended reals is the logistic itself (the word
  `0x3F800000` denotes 1), the enhanced activations are `h + gate · rw`, and the log-softmax subtracts the row maximum
  (a fold of `max` from minus infinity, joined once more with minus infinity) and the logarithm of the row's sum of
  exponentials (a sum from the zero word). So the reference's result is the row-by-row function `ke` of `h`.
-/
import proofs.«123183_j1571958030448_2_alg».proof.Proof.RefReadP
import proofs.«123183_j1571958030448_2_alg».proof.Proof.KeRow

set_option maxRecDepth 16384

noncomputable section

namespace Cert.ReferenceIdeal.Tail

open Cert.ReferenceIdeal Cert.ReferenceIdeal.Gen Cert.ReferenceIdeal.ReadP
open Idealize.ShloMosaic Idealize.ShloMosaic.ValueIdx Cert.KeRow Cert.LibLogSoftmax

/-- The word of 1.0 denotes 1. -/
theorem one_word : Ideal.ofBits .f32 0x3F800000#32 = 1 := by
  simp [Ideal.ofBits, Ideal.ieee, -EReal.coe_mul]; norm_num

section
variable (x0 : (⟨S50000x256, .f32⟩ : BufTy).Contents (Elt Ideal)) (x1 : (⟨S2x800000, .i32⟩ : BufTy).Contents (Elt Ideal))
    (x3 : (⟨S256x128, .f32⟩ : BufTy).Contents (Elt Ideal)) (x4 : (⟨S128, .f32⟩ : BufTy).Contents (Elt Ideal))
    (x5 : (⟨S128x64, .f32⟩ : BufTy).Contents (Elt Ideal)) (x6 : (⟨S64, .f32⟩ : BufTy).Contents (Elt Ideal))
    (x7 : (⟨S64x3, .f32⟩ : BufTy).Contents (Elt Ideal)) (x8 : (⟨S3, .f32⟩ : BufTy).Contents (Elt Ideal))
    (x9 : (⟨S3x1, .f32⟩ : BufTy).Contents (Elt Ideal)) (x10 x11 : (⟨S1, .f32⟩ : BufTy).Contents (Elt Ideal))

/-- The rule activations at `(r, j)`. -/
theorem rule_at (r : Fin 50000) (j : Fin 3) :
    val_main_v88 (F := Ideal) x0 x1 x3 x4 x5 x6 x7 x8 (ix2 r j)
      = (∑ k : Fin 64, val_main_v84 (F := Ideal) x0 x1 x3 x4 x5 x6 (ix2 r k) * x7 (ix2 k j)) + x8 (ix1 j) := by
  rw [val_main_v88_apply, val_main_v85_apply, val_main_v87_apply, val_main_v86_apply]
  show (_ : EReal) + _ = _
  refine congrArg₂ (· + ·) (Finset.sum_congr rfl fun k _ => congrArg₂ (· * ·) (congrArg _ ?_) (congrArg _ ?_)) (congrArg _ ?_)
  · funext a; apply Fin.ext; match a with | ⟨0, _⟩ => rfl | ⟨1, _⟩ => rfl
  · funext a; apply Fin.ext; match a with | ⟨0, _⟩ => rfl | ⟨1, _⟩ => rfl
  · funext a; apply Fin.ext; match a with | ⟨0, _⟩ => rfl

/-- The gate at row `r`. -/
theorem gate_at (r : Fin 50000) :
    val_main_v98 (F := Ideal) x0 x1 x3 x4 x5 x6 x7 x8 x9 x10 (ix2 r z1)
      = gateRow (fun k => val_main_v84 (F := Ideal) x0 x1 x3 x4 x5 x6 (ix2 r k)) x7 (fun j => x8 (ix1 j)) x9 (x10 (ix1 z1)) := by
  have hlogit : val_main_v92 (F := Ideal) x0 x1 x3 x4 x5 x6 x7 x8 x9 x10 (ix2 r z1)
      = (∑ j : Fin 3, ((∑ k : Fin 64, val_main_v84 (F := Ideal) x0 x1 x3 x4 x5 x6 (ix2 r k) * x7 (ix2 k j)) + x8 (ix1 j)) * x9 (ix2 j z1))
        + x10 (ix1 z1) := by
    rw [val_main_v92_apply, val_main_v89_apply, val_main_v91_apply, val_main_v90_apply]
    show (_ : EReal) + _ = _
    refine congrArg₂ (· + ·) (Finset.sum_congr rfl fun j _ => congrArg₂ (· * ·) ?_ (congrArg _ ?_)) (congrArg _ ?_)
    · refine (congrArg _ ?_).trans (rule_at x0 x1 x3 x4 x5 x6 x7 x8 r j)
      funext a; apply Fin.ext; match a with | ⟨0, _⟩ => rfl | ⟨1, _⟩ => rfl
    · funext a; apply Fin.ext; match a with | ⟨0, _⟩ => rfl | ⟨1, _⟩ => rfl
    · funext a; apply Fin.ext; match a with | ⟨0, _⟩ => rfl
  rw [val_main_v98_apply, val_main_v97_apply, val_main_v96_apply, val_main_v95_apply, val_main_v94_apply, val_main_v93_apply, hlogit,
    val_main_cst_17_apply, val_main_cst_16_apply]
  simp only [Ideal.ofBits_def, Ideal.hostDivf_def, Ideal.addf_def, Ideal.hostUnary_exp_def, Ideal.hostNegf_def, Ideal.negf_def, one_word]
  rfl

/-- The enhanced activations at `(r, k)`. -/
theorem enh_at (r : Fin 50000) (k : Fin 64) :
    val_main_v103 (F := Ideal) x0 x1 x3 x4 x5 x6 x7 x8 x9 x10 x11 (ix2 r k)
      = enhRow (fun k => val_main_v84 (F := Ideal) x0 x1 x3 x4 x5 x6 (ix2 r k)) x7 (fun j => x8 (ix1 j)) x9 (x10 (ix1 z1)) (x11 (ix1 z1)) k := by
  rw [val_main_v103_apply, val_main_v102_apply, val_main_v101_apply, val_main_v100_apply, val_main_v99_apply]
  unfold enhRow
  show (_ : EReal) + (_ : EReal) * _ = _
  refine congrArg₂ (· + ·) rfl (congrArg₂ (· * ·) ?_ (congrArg _ ?_))
  · refine (congrArg _ ?_).trans (gate_at x0 x1 x3 x4 x5 x6 x7 x8 x9 x10 r)
    funext a; apply Fin.ext; match a with | ⟨0, _⟩ => rfl | ⟨1, _⟩ => rfl
  · funext a; apply Fin.ext; match a with | ⟨0, _⟩ => rfl

/-- A reduction along the columns of a [50000, 64] array leaves its rows. -/
theorem red_rows : S50000x64.Reduces [(1 : Fin 2)] S50000 := by decide

/-- The row maximum as jax takes it, broadcast back along the row. -/
theorem max_at (r : Fin 50000) (k : Fin 64) :
    val_main_call1_v4 (F := Ideal) x0 x1 x3 x4 x5 x6 x7 x8 x9 x10 x11 (ix2 r k)
      = rowMax (fun k => val_main_v103 (F := Ideal) x0 x1 x3 x4 x5 x6 x7 x8 x9 x10 x11 (ix2 r k)) := by
  have hidx : idx_main_call1_v3 (idx_main_call1_v4 (ix2 r k)) = ix1 r := by
    funext a; apply Fin.ext; match a with | ⟨0, _⟩ => rfl
  rw [val_main_call1_v4_apply, val_main_call1_v3_apply, val_main_call1_v2_apply, val_main_call1_v1_apply, val_main_call1_cst_0_apply, hidx]
  unfold val_main_call1_v0
  rw [hostRowMax (val_main_v103 (F := Ideal) x0 x1 x3 x4 x5 x6 x7 x8 x9 x10 x11) (val_main_call1_cst (F := Ideal))
    (fun i => (val_main_call1_cst_apply i).trans (Ideal.ofBits_def _)) reducesTo_S50000x64_S50000_d1 red_rows h_S_ r]
  generalize val_main_v103 (F := Ideal) x0 x1 x3 x4 x5 x6 x7 x8 x9 x10 x11 = Z
  simp only [Ideal.maximumf_def, Ideal.ofBits_def]
  rfl

/-- The reference's result is the row-by-row function of the second layer's activations. -/
theorem tail_eq :
    val_main_v104 (F := Ideal) x0 x1 x3 x4 x5 x6 x7 x8 x9 x10 x11
      = ke (val_main_v84 (F := Ideal) x0 x1 x3 x4 x5 x6) x7 (fun j => x8 (ix1 j)) x9 (x10 (ix1 z1)) (x11 (ix1 z1)) := by
  funext i
  obtain ⟨r, q, rfl⟩ : ∃ (r : Fin 50000) (q : Fin 64), i = ix2 r q := ⟨i 0, i 1, eq_ix2 i⟩
  have hrow : (fun k : Fin 64 => val_main_v103 (F := Ideal) x0 x1 x3 x4 x5 x6 x7 x8 x9 x10 x11 (ix2 r k))
      = enhRow (fun k => val_main_v84 (F := Ideal) x0 x1 x3 x4 x5 x6 (ix2 r k)) x7 (fun j => x8 (ix1 j)) x9 (x10 (ix1 z1)) (x11 (ix1 z1)) :=
    funext fun k => enh_at x0 x1 x3 x4 x5 x6 x7 x8 x9 x10 x11 r k
  have hshift : ∀ k : Fin 64, val_main_call1_v5 (F := Ideal) x0 x1 x3 x4 x5 x6 x7 x8 x9 x10 x11 (ix2 r k)
      = val_main_v103 (F := Ideal) x0 x1 x3 x4 x5 x6 x7 x8 x9 x10 x11 (ix2 r k)
        - rowMax (fun k => val_main_v103 (F := Ideal) x0 x1 x3 x4 x5 x6 x7 x8 x9 x10 x11 (ix2 r k)) := fun k => by
    rw [val_main_call1_v5_apply, max_at x0 x1 x3 x4 x5 x6 x7 x8 x9 x10 x11 r k]
    rfl
  have hsum : val_main_call1_v10 (F := Ideal) x0 x1 x3 x4 x5 x6 x7 x8 x9 x10 x11 (ix2 r q)
      = Ideal.log (∑ k : Fin 64, Ideal.exp (val_main_v103 (F := Ideal) x0 x1 x3 x4 x5 x6 x7 x8 x9 x10 x11 (ix2 r k)
          - rowMax (fun k => val_main_v103 (F := Ideal) x0 x1 x3 x4 x5 x6 x7 x8 x9 x10 x11 (ix2 r k)))) := by
    rw [val_main_call1_v10_apply, val_main_call1_v9_apply, val_main_call1_v8_apply, val_main_call1_v7_apply, val_main_call1_cst_1_apply]
    simp only [Ideal.ofBits_def, Ideal.ofBits_zero_f32, zero_add, Ideal.hostUnary_log_def]
    refine congrArg Ideal.log (Finset.sum_congr rfl fun k _ => ?_)
    rw [val_main_call1_v6_apply]
    simp only [Ideal.hostUnary_exp_def]
    refine congrArg Ideal.exp ((congrArg _ ?_).trans (hshift k))
    funext a; apply Fin.ext; match a with | ⟨0, _⟩ => rfl | ⟨1, _⟩ => rfl
  have hke : ke (val_main_v84 (F := Ideal) x0 x1 x3 x4 x5 x6) x7 (fun j => x8 (ix1 j)) x9 (x10 (ix1 z1)) (x11 (ix1 z1)) (ix2 r q)
      = lsmRow (enhRow (fun k => val_main_v84 (F := Ideal) x0 x1 x3 x4 x5 x6 (ix2 r k)) x7 (fun j => x8 (ix1 j)) x9 (x10 (ix1 z1)) (x11 (ix1 z1))) q := rfl
  rw [val_main_v104_apply, hshift q, hsum, hke, ← hrow]
  rfl

end

end Cert.ReferenceIdeal.Tail

end
-- ==== Proof.RefLayers.lean ====
/-
  The reference's two graph-convolution layers are the kernel's: jnp's `x @ W` is the row-by-column product at every
  entry, and around the two products the reference applies, operation for operation, the host chain the kernel's program
  applies between its regions (the reference forms the sources, destinations and normalisation a second time for the
  second layer; they are the same functions of the edge list).
-/
import proofs.«123183_j1571958030448_2_alg».proof.Proof.RefReadP
import proofs.«123183_j1571958030448_2_alg».proof.Proof.KHost
import proofs.«123183_j1571958030448_2_alg».proof.Proof.LibDense

set_option maxRecDepth 16384

noncomputable section

namespace Cert.ReferenceIdeal.Layers

open Cert.ReferenceIdeal Cert.ReferenceIdeal.ReadP
open Idealize.ShloMosaic Idealize.ShloMosaic.ValueIdx Cert.LibDense

section
variable (x0 : (⟨S50000x256, .f32⟩ : BufTy).Contents (Elt Ideal)) (x1 : (⟨S2x800000, .i32⟩ : BufTy).Contents (Elt Ideal))
    (x3 : (⟨S256x128, .f32⟩ : BufTy).Contents (Elt Ideal)) (x4 : (⟨S128, .f32⟩ : BufTy).Contents (Elt Ideal))
    (x5 : (⟨S128x64, .f32⟩ : BufTy).Contents (Elt Ideal)) (x6 : (⟨S64, .f32⟩ : BufTy).Contents (Elt Ideal))

/-- The first linear transform is the product. -/
theorem lin1_eq : val_main_v4 (F := Ideal) x0 x3 = prod x0 x3 := by
  funext i
  unfold val_main_v4
  exact dotGeneral_plain (M := 50000) (K := 256) (N := 128) HostSchedule.single x0 x3 i

/-- The first layer around it. -/
theorem layer1_eq :
    val_main_v44 (F := Ideal) x0 x1 x3 x4 = Cert.KernelIdeal.Whole.layer1K (F := Ideal) (val_main_v4 (F := Ideal) x0 x3) x1 x4 := rfl

/-- The second linear transform is the product. -/
theorem lin2_eq : val_main_v45 (F := Ideal) x0 x1 x3 x4 x5 = prod (val_main_v44 (F := Ideal) x0 x1 x3 x4) x5 := by
  funext i
  unfold val_main_v45
  exact dotGeneral_plain (M := 50000) (K := 128) (N := 64) HostSchedule.single (val_main_v44 (F := Ideal) x0 x1 x3 x4) x5 i

/-- The second layer around it. -/
theorem layer2_eq :
    val_main_v84 (F := Ideal) x0 x1 x3 x4 x5 x6 = Cert.KernelIdeal.Whole.layer2K (F := Ideal) (val_main_v45 (F := Ideal) x0 x1 x3 x4 x5) x1 x6 := rfl

/-- The activations after the second layer, as the kernel's chain of the same arguments. -/
theorem act_eq :
    val_main_v84 (F := Ideal) x0 x1 x3 x4 x5 x6
      = Cert.KernelIdeal.Whole.layer2K (F := Ideal)
          (prod (Cert.KernelIdeal.Whole.layer1K (F := Ideal) (prod x0 x3) x1 x4) x5) x1 x6 := by
  rw [layer2_eq, lin2_eq, layer1_eq, lin1_eq]

end

end Cert.ReferenceIdeal.Layers

end
-- ==== Proof.lean ====
/-
  The certificate of a two-layer graph convolution with a gated "knowledge enhancement" residual and a log-softmax.

  Both programs compute, for node features X, an edge list, weights W1, W2, biases b1, b2 and the gate's parameters:
  the edges' sources and destinations with a self loop appended for every node; the degree of every node and the
  normalisation norm e = rsqrt (deg (src e)) · rsqrt (deg (dst e)); H1 = max (A (X · W1) + b1, 0) and H2 = A (H1 · W2) + b2,
  where A gathers rows at the sources, scales row e by norm e and adds the rows up at the destinations; and, row by row,
  log_softmax (H2 + logistic ((H2 · We + be) · Wg + bg) · rw).

  The kernel takes the two products and the last, row-wise step in three tiled regions and everything else on the host;
  the reference is host operations throughout. On the extended reals a region's tiling changes nothing: a product's
  entry is one finite sum, whatever the band of rows it is computed in, and the last step reads one row at a time. Around
  the regions the two programs apply the same host operations to the same values, and the reference's written-out
  1 / (1 + exp (−x)) is the logistic. No argument needs to be finite for any of this.

  The three frames: the two kernel programs' are the generated ones; the reference's is its run with the result dropped.
  The idealization rewrote nothing, so `preserves` is `True`.
-/
import proofs.«123183_j1571958030448_2_alg».proof.Defs
import proofs.«123183_j1571958030448_2_alg».proof.Proof.Gen.Kernel
import proofs.«123183_j1571958030448_2_alg».proof.Proof.Gen.Kernel.Skeleton
import proofs.«123183_j1571958030448_2_alg».proof.Proof.Gen.Kernel.Launch
import proofs.«123183_j1571958030448_2_alg».proof.Proof.Gen.Kernel.Points
import proofs.«123183_j1571958030448_2_alg».proof.Proof.Gen.Kernel.Frame
import proofs.«123183_j1571958030448_2_alg».proof.Proof.Gen.KernelIdeal
import proofs.«123183_j1571958030448_2_alg».proof.Proof.Gen.KernelIdeal.Skeleton
import proofs.«123183_j1571958030448_2_alg».proof.Proof.Gen.KernelIdeal.Launch
import proofs.«123183_j1571958030448_2_alg».proof.Proof.Gen.KernelIdeal.Points
import proofs.«123183_j1571958030448_2_alg».proof.Proof.Gen.KernelIdeal.Frame
import proofs.«123183_j1571958030448_2_alg».proof.Proof.Gen.ReferenceIdeal
import proofs.«123183_j1571958030448_2_alg».proof.Proof.Gen.Pre_finite_inputs
import Idealize.ShloMosaic.Adequacy
import Idealize.ShloMosaic.Init
import Idealize.ShloMosaic.Lib.ValueLayout
import proofs.«123183_j1571958030448_2_alg».proof.Proof.RunResult
import proofs.«123183_j1571958030448_2_alg».proof.Proof.KValue
import proofs.«123183_j1571958030448_2_alg».proof.Proof.RefReadP
import proofs.«123183_j1571958030448_2_alg».proof.Proof.RefTail
import proofs.«123183_j1571958030448_2_alg».proof.Proof.RefLayers

noncomputable section

namespace Cert.Proof

open Idealize.ShloMosaic Idealize.ShloMosaic.TcCoe Idealize.SL.Sem Idealize.ShloMosaic.ValueIdx Cert.KeRow

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Run from memories that agree on the arguments, the idealized kernel ends with its result buffer at the third
    region's output, and the idealized reference with its result at the same array: both are the row-by-row function of
    the second layer's activations, which are one function of the arguments. -/
theorem algebraic : Cert.algebraic_KernelIdeal_ReferenceIdeal := by
  intro m ρ m' ρ' _ hagree
  refine ⟨fun c => Cert.KernelIdeal.Gen.W7 m ρ c (Proc.devRef .tc Cert.KernelIdeal.main_v65),
    Cert.KernelIdeal.Whole.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10, e11⟩ := hagree c
  show _ = Cert.KernelIdeal.Gen.W7 m ρ c (Proc.devRef .tc Cert.KernelIdeal.main_v65)
  rw [Cert.ReferenceIdeal.ReadP.val_main_v104_eq, Cert.ReferenceIdeal.Tail.tail_eq, Cert.ReferenceIdeal.Layers.act_eq,
    e0, e1, e3, e4, e5, e6, e7, e8, e9, e10, e11, Cert.KernelIdeal.Whole.result m ρ c]
  have hbe : (fun j : Fin 3 => shapeCast Cert.KernelIdeal.S1x3 (m ((c.tc : Thread Cert.KernelIdeal.nD Cert.KernelIdeal.τ).loc Cert.KernelIdeal.main_arg8))
      Cert.KernelIdeal.Facts₀.shapeCasts_S3_S1x3 (ix2 z1 j))
      = fun j : Fin 3 => m ((c.tc : Thread Cert.KernelIdeal.nD Cert.KernelIdeal.τ).loc Cert.KernelIdeal.main_arg8) (ix1 j) :=
    funext fun j => shapeCast_a_1a_apply _ _ z1 j
  have hbg : shapeCast Cert.KernelIdeal.S1x1 (m ((c.tc : Thread Cert.KernelIdeal.nD Cert.KernelIdeal.τ).loc Cert.KernelIdeal.main_arg10))
      Cert.KernelIdeal.Facts₀.shapeCasts_S1_S1x1 (ix2 z1 z1)
      = m ((c.tc : Thread Cert.KernelIdeal.nD Cert.KernelIdeal.τ).loc Cert.KernelIdeal.main_arg10) (ix1 z1) :=
    shapeCast_a_1a_apply _ _ z1 z1
  have hrw : shapeCast Cert.KernelIdeal.S1x1 (m ((c.tc : Thread Cert.KernelIdeal.nD Cert.KernelIdeal.τ).loc Cert.KernelIdeal.main_arg11))
      Cert.KernelIdeal.Facts₀.shapeCasts_S1_S1x1 (ix2 z1 z1)
      = m ((c.tc : Thread Cert.KernelIdeal.nD Cert.KernelIdeal.τ).loc Cert.KernelIdeal.main_arg11) (ix1 z1) :=
    shapeCast_a_1a_apply _ _ z1 z1
  rw [hbe, hbg, hrw]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
